-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x1024x2 : Shape := ⟨3, ![4, 1024, 2]⟩
abbrev S8x768x1024 : Shape := ⟨3, ![8, 768, 1024]⟩
abbrev S8x1024x768 : Shape := ⟨3, ![8, 1024, 768]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S4x1024x2 : S_.BroadcastsInDim S4x1024x2 (![] : Fin 0 → Fin S4x1024x2.rank)
  reducesTo_S4x1024x2_S_d0_1_2 : S4x1024x2.ReducesTo [0, 1, 2] S_
  bcast_S_S8x768x1024 : S_.BroadcastsInDim S8x768x1024 (![] : Fin 0 → Fin S8x768x1024.rank)
  reducesTo_S8x768x1024_S_d0_1_2 : S8x768x1024.ReducesTo [0, 1, 2] S_
  bcast_S_S8x1024x768 : S_.BroadcastsInDim S8x1024x768 (![] : Fin 0 → Fin S8x1024x768.rank)
  reducesTo_S8x1024x768_S_d0_1_2 : S8x1024x768.ReducesTo [0, 1, 2] S_

variable [Facts]

def fn_part1 {F : FTy → Type} [FloatOps F] (main_arg5 : FVec F S8x1024x768 .f32) (main_v13 : IVec S_ 1) (main_v16 : IVec S8x768x1024 1) : IVec S_ 1 :=
  let main_c_5 : IVec S_ 1 := constantI S_ 1 1#1
  let main_v17 : IVec S_ 1 := (fun x v => Host.reduce IntOp.andi x v reducesTo_S8x768x1024_S_d0_1_2 h_S_) main_v16 main_c_5
  let main_v18 : IVec S_ 1 := andi main_v13 main_v17
  let main_v19 : FVec F S8x1024x768 .f32 := Host.absf main_arg5
  let main_cst_6 : FVec F S_ .f32 := constant S_ .f32 0x7F800000#32
  let main_v20 : FVec F S8x1024x768 .f32 := broadcastInDim S8x1024x768 ![] bcast_S_S8x1024x768 main_cst_6
  let main_v21 : IVec S8x1024x768 1 := cmpf .olt main_v19 main_v20
  let main_c_7 : IVec S_ 1 := constantI S_ 1 1#1
  let main_v22 : IVec S_ 1 := (fun x v => Host.reduce IntOp.andi x v reducesTo_S8x1024x768_S_d0_1_2 h_S_) main_v21 main_c_7
  let main_v23 : IVec S_ 1 := andi main_v18 main_v22
  main_v23

def fn {F : FTy → Type} [FloatOps F] (main_arg0 : FVec F S4x1024x1024 .f32) (main_arg1 : FVec F S4x1024x2 .f32) (main_arg2 : IVec S4x1024x2 32) (main_arg3 : FVec F S8x768x1024 .f32) (main_arg4 : FVec F S8x768x1024 .f32) (main_arg5 : FVec F S8x1024x768 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1024x2 .f32 := Host.absf main_arg1
  let main_cst_0 : FVec F S_ .f32 := constant S_ .f32 0x7F800000#32
  let main_v5 : FVec F S4x1024x2 .f32 := broadcastInDim S4x1024x2 ![] bcast_S_S4x1024x2 main_cst_0
  let main_v6 : IVec S4x1024x2 1 := cmpf .olt main_v4 main_v5
  let main_c_1 : IVec S_ 1 := constantI S_ 1 1#1
  let main_v7 : IVec S_ 1 := (fun x v => Host.reduce IntOp.andi x v reducesTo_S4x1024x2_S_d0_1_2 h_S_) main_v6 main_c_1
  let main_v8 : IVec S_ 1 := andi main_v3 main_v7
  let main_v9 : FVec F S8x768x1024 .f32 := Host.absf main_arg3
  let main_cst_2 : FVec F S_ .f32 := constant S_ .f32 0x7F800000#32
  let main_v10 : FVec F S8x768x1024 .f32 := broadcastInDim S8x768x1024 ![] bcast_S_S8x768x1024 main_cst_2
  let main_v11 : IVec S8x768x1024 1 := cmpf .olt main_v9 main_v10
  let main_c_3 : IVec S_ 1 := constantI S_ 1 1#1
  let main_v12 : IVec S_ 1 := (fun x v => Host.reduce IntOp.andi x v reducesTo_S8x768x1024_S_d0_1_2 h_S_) main_v11 main_c_3
  let main_v13 : IVec S_ 1 := andi main_v8 main_v12
  let main_v14 : FVec F S8x768x1024 .f32 := Host.absf main_arg4
  let main_cst_4 : FVec F S_ .f32 := constant S_ .f32 0x7F800000#32
  let main_v15 : FVec F S8x768x1024 .f32 := broadcastInDim S8x768x1024 ![] bcast_S_S8x768x1024 main_cst_4
  let main_v16 : IVec S8x768x1024 1 := cmpf .olt main_v14 main_v15
  fn_part1 (F := F) main_arg5 main_v13 main_v16
-- ==== Kernel.lean ====
abbrev S4x1024x1024 : Shape := ⟨3, ![4, 1024, 1024]⟩
abbrev S4x1024x2 : Shape := ⟨3, ![4, 1024, 2]⟩
abbrev S8x768x1024 : Shape := ⟨3, ![8, 768, 1024]⟩
abbrev S8x1024x768 : Shape := ⟨3, ![8, 1024, 768]⟩
abbrev S4096x1024 : Shape := ⟨2, ![4096, 1024]⟩
abbrev S4096x2 : Shape := ⟨2, ![4096, 2]⟩
abbrev S_ : Shape := ⟨0, ![]⟩
abbrev S4096x8 : Shape := ⟨2, ![4096, 8]⟩
abbrev S4096 : Shape := ⟨1, ![4096]⟩
abbrev S4096x1 : Shape := ⟨2, ![4096, 1]⟩
abbrev S4096x2x1 : Shape := ⟨3, ![4096, 2, 1]⟩
abbrev S4096x2x2 : Shape := ⟨3, ![4096, 2, 2]⟩
abbrev S8x1536x1024 : Shape := ⟨3, ![8, 1536, 1024]⟩
abbrev S512x1024 : Shape := ⟨2, ![512, 1024]⟩
abbrev S1x1536x1024 : Shape := ⟨3, ![1, 1536, 1024]⟩
abbrev S1x1024x768 : Shape := ⟨3, ![1, 1024, 768]⟩
abbrev S512x8 : Shape := ⟨2, ![512, 8]⟩
abbrev S1536x1024 : Shape := ⟨2, ![1536, 1024]⟩
abbrev S1024x768 : Shape := ⟨2, ![1024, 768]⟩
abbrev S512x1536 : Shape := ⟨2, ![512, 1536]⟩
abbrev S512x768 : Shape := ⟨2, ![512, 768]⟩
abbrev S512 : Shape := ⟨1, ![512]⟩
abbrev S512x1 : Shape := ⟨2, ![512, 1]⟩

abbrev nBuf : Space → Nat
  | .hbm => 38
  | .vmem => 10
  | .smem => 0
  | _ => 0

abbrev bufTy : (tb : Table) → Fin (tcTables nBuf tb) → BufTy
  | .hbm, ⟨0, _⟩ => ⟨S4x1024x1024, .f32⟩
  | .hbm, ⟨1, _⟩ => ⟨S4x1024x2, .f32⟩
  | .hbm, ⟨2, _⟩ => ⟨S4x1024x2, .i32⟩
  | .hbm, ⟨3, _⟩ => ⟨S8x768x1024, .f32⟩
  | .hbm, ⟨4, _⟩ => ⟨S8x768x1024, .f32⟩
  | .hbm, ⟨5, _⟩ => ⟨S8x1024x768, .f32⟩
  | .hbm, ⟨6, _⟩ => ⟨S4096x1024, .f32⟩
  | .hbm, ⟨7, _⟩ => ⟨S4096x1024, .bf16⟩
  | .hbm, ⟨8, _⟩ => ⟨S4096x2, .f32⟩
  | .hbm, ⟨9, _⟩ => ⟨S4096x2, .i32⟩
  | .hbm, ⟨10, _⟩ => ⟨S_, .f32⟩
  | .hbm, ⟨11, _⟩ => ⟨S4096x8, .f32⟩
  | .hbm, ⟨12, _⟩ => ⟨S4096, .i32⟩
  | .hbm, ⟨13, _⟩ => ⟨S4096x1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S_, .i32⟩
  | .hbm, ⟨18, _⟩ => ⟨S4096x1, .i32⟩
  | .hbm, ⟨19, _⟩ => ⟨S4096x1, .i32⟩
  | .hbm, ⟨20, _⟩ => ⟨S4096x1, .i32⟩
  | .hbm, ⟨21, _⟩ => ⟨S_, .i32⟩
  | .hbm, ⟨22, _⟩ => ⟨S4096x2, .i32⟩
  | .hbm, ⟨23, _⟩ => ⟨S4096x2, .i1⟩
  | .hbm, ⟨24, _⟩ => ⟨S_, .i32⟩
  | .hbm, ⟨25, _⟩ => ⟨S4096x2, .i32⟩
  | .hbm, ⟨26, _⟩ => ⟨S4096x2, .i32⟩
  | .hbm, ⟨27, _⟩ => ⟨S4096x2, .i32⟩
  | .hbm, ⟨28, _⟩ => ⟨S4096x2, .i32⟩
  | .hbm, ⟨29, _⟩ => ⟨S4096x2x1, .i32⟩
  | .hbm, ⟨30, _⟩ => ⟨S4096x2x1, .i32⟩
  | .hbm, ⟨31, _⟩ => ⟨S4096x2x2, .i32⟩
  | .hbm, ⟨32, _⟩ => ⟨S4096x8, .f32⟩
  | .hbm, ⟨33, _⟩ => ⟨S8x1536x1024, .f32⟩
  | .hbm, ⟨34, _⟩ => ⟨S8x1536x1024, .bf16⟩
  | .hbm, ⟨35, _⟩ => ⟨S8x1024x768, .bf16⟩
  | .hbm, ⟨36, _⟩ => ⟨S4096x1024, .f32⟩
  | .hbm, ⟨37, _⟩ => ⟨S4x1024x1024, .f32⟩
  | .local _ .vmem, ⟨0, _⟩ => ⟨S512x1024, .bf16⟩
  | .local _ .vmem, ⟨1, _⟩ => ⟨S512x1024, .bf16⟩
  | .local _ .vmem, ⟨2, _⟩ => ⟨S1x1536x1024, .bf16⟩
  | .local _ .vmem, ⟨3, _⟩ => ⟨S1x1536x1024, .bf16⟩
  | .local _ .vmem, ⟨4, _⟩ => ⟨S1x1024x768, .bf16⟩
  | .local _ .vmem, ⟨5, _⟩ => ⟨S1x1024x768, .bf16⟩
  | .local _ .vmem, ⟨6, _⟩ => ⟨S512x8, .f32⟩
  | .local _ .vmem, ⟨7, _⟩ => ⟨S512x8, .f32⟩
  | .local _ .vmem, ⟨8, _⟩ => ⟨S512x1024, .f32⟩
  | .local _ .vmem, ⟨9, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x1024x1024_S4096x1024 : S4x1024x1024.ShapeCasts S4096x1024
  bitsLt_bf16_f32 : FTy.bits .bf16 < FTy.bits .f32
  shapeCasts_S4x1024x2_S4096x2 : S4x1024x2.ShapeCasts S4096x2
  bcast_S_S4096x8 : S_.BroadcastsInDim S4096x8 (![] : Fin 0 → Fin S4096x8.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x2 : S_.BroadcastsInDim S4096x2 (![] : Fin 0 → Fin S4096x2.rank)
  bcast_S4096x1_S4096x2_0_1 : S4096x1.BroadcastsInDim S4096x2 (![0, 1] : Fin 2 → Fin S4096x2.rank)
  bcast_S4096x2_S4096x2x1_0_1 : S4096x2.BroadcastsInDim S4096x2x1 (![0, 1] : Fin 2 → Fin S4096x2x1.rank)
  concatenates_S4096x2x1_S4096x2x1_S4096x2x2_d2 : Shape.Concatenates [S4096x2x1, S4096x2x1] S4096x2x2 2
  concatenates_S8x768x1024_S8x768x1024_S8x1536x1024_d1 : Shape.Concatenates [S8x768x1024, S8x768x1024] S8x1536x1024 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1536x1024_S1x1536x1024_0_0_0 : ∀ a, (![0, 0, 0] : Fin 3 → Nat) a + S1x1536x1024.size a ≤ S1x1536x1024.size a
  h_S1x1536x1024 : 0 < S1x1536x1024.numel
  shapeCasts_S1x1536x1024_S1536x1024 : S1x1536x1024.ShapeCasts S1536x1024
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  slices_S512x1536_o0_0_S512x768 : S512x1536.Slices ![0, 0] S512x768
  slices_S512x1536_o0_768_S512x768 : S512x1536.Slices ![0, 768] S512x768
  inb_S512x8_S512x8_0_0 : ∀ a, (![0, 0] : Fin 2 → Nat) a + S512x8.size a ≤ S512x8.size a
  h_S512x8 : 0 < S512x8.numel
  shapeCasts_S512x8_S512x8 : S512x8.ShapeCasts S512x8
  iota_S512x8_d1_w32 : S512x8.Iotas .tc 32 [1]
  natLt_1_32 : 1 < 32
  reduces_S512x8_S512 : S512x8.Reduces [1] S512
  shapeCasts_S512_S512x1 : S512.ShapeCasts S512x1
  broadcasts_S512x1_S512x1024 : S512x1.Broadcasts S512x1024
  shapeCasts_S4096x1024_S4x1024x1024 : S4096x1024.ShapeCasts S4x1024x1024
  scatter_S4096x8_S4096x2x2_S4096x2_n_01_01_2_wf : ScatterDims.WF S4096x8 S4096x2x2 S4096x2 [] [0, 1] [0, 1] 2
  dot_S512x1024_S1536x1024_S512x1536_1_1_0_0_n_n_wf : DotDims.WF S512x1024 S1536x1024 S512x1536 [1] [1] [0] [0] [] []
  dot_S512x768_S1024x768_S512x1024_1_1_0_0_n_n_wf : DotDims.WF S512x768 S1024x768 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1536x1024.size a ≤ S8x1536x1024.size a
  hwx0_1 : ∀ i : grid0.Coords, EltTy.bits .bf16 = 32 ∨ (Rect.block (s := S8x1536x1024) S1x1536x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x768.size a ≤ S8x1024x768.size a
  hwx0_2 : ∀ i : grid0.Coords, EltTy.bits .bf16 = 32 ∨ (Rect.block (s := S8x1024x768) S1x1024x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S4096x8.size a
  hwx0_3 : ∀ i : grid0.Coords, EltTy.bits .f32 = 32 ∨ (Rect.block (s := S4096x8) S512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)

variable [Facts₀]

def scatter_S4096x8_S4096x2x2_S4096x2_n_01_01_2 : ScatterDims S4096x8 S4096x2x2 S4096x2 where
  updateWindowDims := []
  insertedWindowDims := [0, 1]
  scatterDimsToOperandDims := [0, 1]
  indexVectorDim := 2
  wf := scatter_S4096x8_S4096x2x2_S4096x2_n_01_01_2_wf
def dot_S512x1024_S1536x1024_S512x1536_1_1_0_0_n_n : DotDims S512x1024 S1536x1024 S512x1536 where
  lhsContracting := [1]
  rhsContracting := [1]
  lhsNonContracting := [0]
  rhsNonContracting := [0]
  lhsBatch := []
  rhsBatch := []
  wf := dot_S512x1024_S1536x1024_S512x1536_1_1_0_0_n_n_wf
def dot_S512x768_S1024x768_S512x1024_1_1_0_0_n_n : DotDims S512x768 S1024x768 S512x1024 where
  lhsContracting := [1]
  rhsContracting := [1]
  lhsNonContracting := [0]
  rhsNonContracting := [0]
  lhsBatch := []
  rhsBatch := []
  wf := dot_S512x768_S1024x768_S512x1024_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x1536x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1024x1024 : Shape := ⟨3, ![4, 1024, 1024]⟩
abbrev S4x1024x2 : Shape := ⟨3, ![4, 1024, 2]⟩
abbrev S8x768x1024 : Shape := ⟨3, ![8, 768, 1024]⟩
abbrev S8x1024x768 : Shape := ⟨3, ![8, 1024, 768]⟩
abbrev S4096x1024 : Shape := ⟨2, ![4096, 1024]⟩
abbrev S4096x2 : Shape := ⟨2, ![4096, 2]⟩
abbrev S_ : Shape := ⟨0, ![]⟩
abbrev S4096x8 : Shape := ⟨2, ![4096, 8]⟩
abbrev S4096 : Shape := ⟨1, ![4096]⟩
abbrev S4096x1 : Shape := ⟨2, ![4096, 1]⟩
abbrev S4096x2x1 : Shape := ⟨3, ![4096, 2, 1]⟩
abbrev S4096x2x2 : Shape := ⟨3, ![4096, 2, 2]⟩
abbrev S1x768x1024 : Shape := ⟨3, ![1, 768, 1024]⟩
abbrev S768x1024 : Shape := ⟨2, ![768, 1024]⟩
abbrev S1024x768 : Shape := ⟨2, ![1024, 768]⟩
abbrev S4096x768 : Shape := ⟨2, ![4096, 768]⟩
abbrev S1x1024x768 : Shape := ⟨3, ![1, 1024, 768]⟩

abbrev nBuf : Space → Nat
  | .hbm => 243
  | .vmem => 0
  | .smem => 0
  | _ => 0

abbrev hbmTy0_0 (i : Nat) : BufTy := match i % 128 with
  | 0 => ⟨S4x1024x1024, .f32⟩
  | 1 => ⟨S4x1024x2, .f32⟩
  | 2 => ⟨S4x1024x2, .i32⟩
  | 3 => ⟨S8x768x1024, .f32⟩
  | 4 => ⟨S8x768x1024, .f32⟩
  | 5 => ⟨S8x1024x768, .f32⟩
  | 6 => ⟨S4096x1024, .f32⟩
  | 7 => ⟨S4096x2, .f32⟩
  | 8 => ⟨S4096x2, .i32⟩
  | 9 => ⟨S_, .f32⟩
  | 10 => ⟨S4096x8, .f32⟩
  | 11 => ⟨S4096, .i32⟩
  | 12 => ⟨S4096x1, .i32⟩
  | 13 => ⟨S_, .i32⟩
  | 14 => ⟨S4096x1, .i32⟩
  | 15 => ⟨S4096x1, .i1⟩
  | 16 => ⟨S_, .i32⟩
  | 17 => ⟨S4096x1, .i32⟩
  | 18 => ⟨S4096x1, .i32⟩
  | 19 => ⟨S4096x1, .i32⟩
  | 20 => ⟨S_, .i32⟩
  | 21 => ⟨S4096x2, .i32⟩
  | 22 => ⟨S4096x2, .i1⟩
  | 23 => ⟨S_, .i32⟩
  | 24 => ⟨S4096x2, .i32⟩
  | 25 => ⟨S4096x2, .i32⟩
  | 26 => ⟨S4096x2, .i32⟩
  | 27 => ⟨S4096x2, .i32⟩
  | 28 => ⟨S4096x2x1, .i32⟩
  | 29 => ⟨S4096x2x1, .i32⟩
  | 30 => ⟨S4096x2x2, .i32⟩
  | 31 => ⟨S4096x8, .f32⟩
  | 32 => ⟨S_, .f32⟩
  | 33 => ⟨S4096x1024, .f32⟩
  | 34 => ⟨S1x768x1024, .f32⟩
  | 35 => ⟨S768x1024, .f32⟩
  | 36 => ⟨S1024x768, .f32⟩
  | 37 => ⟨S4096x768, .f32⟩
  | 38 => ⟨S1x768x1024, .f32⟩
  | 39 => ⟨S768x1024, .f32⟩
  | 40 => ⟨S1024x768, .f32⟩
  | 41 => ⟨S4096x768, .f32⟩
  | 42 => ⟨S4096x768, .f32⟩
  | 43 => ⟨S4096x768, .f32⟩
  | 44 => ⟨S_, .f32⟩
  | 45 => ⟨S4096x768, .f32⟩
  | 46 => ⟨S4096x768, .f32⟩
  | 47 => ⟨S_, .f32⟩
  | 48 => ⟨S4096x768, .f32⟩
  | 49 => ⟨S4096x768, .f32⟩
  | 50 => ⟨S4096x768, .f32⟩
  | 51 => ⟨S4096x768, .f32⟩
  | 52 => ⟨S1x1024x768, .f32⟩
  | 53 => ⟨S1024x768, .f32⟩
  | 54 => ⟨S768x1024, .f32⟩
  | 55 => ⟨S4096x1024, .f32⟩
  | 56 => ⟨S4096x1, .f32⟩
  | 57 => ⟨S4096x1024, .f32⟩
  | 58 => ⟨S4096x1024, .f32⟩
  | 59 => ⟨S4096x1024, .f32⟩
  | 60 => ⟨S1x768x1024, .f32⟩
  | 61 => ⟨S768x1024, .f32⟩
  | 62 => ⟨S1024x768, .f32⟩
  | 63 => ⟨S4096x768, .f32⟩
  | 64 => ⟨S1x768x1024, .f32⟩
  | 65 => ⟨S768x1024, .f32⟩
  | 66 => ⟨S1024x768, .f32⟩
  | 67 => ⟨S4096x768, .f32⟩
  | 68 => ⟨S4096x768, .f32⟩
  | 69 => ⟨S4096x768, .f32⟩
  | 70 => ⟨S_, .f32⟩
  | 71 => ⟨S4096x768, .f32⟩
  | 72 => ⟨S4096x768, .f32⟩
  | 73 => ⟨S_, .f32⟩
  | 74 => ⟨S4096x768, .f32⟩
  | 75 => ⟨S4096x768, .f32⟩
  | 76 => ⟨S4096x768, .f32⟩
  | 77 => ⟨S4096x768, .f32⟩
  | 78 => ⟨S1x1024x768, .f32⟩
  | 79 => ⟨S1024x768, .f32⟩
  | 80 => ⟨S768x1024, .f32⟩
  | 81 => ⟨S4096x1024, .f32⟩
  | 82 => ⟨S4096x1, .f32⟩
  | 83 => ⟨S4096x1024, .f32⟩
  | 84 => ⟨S4096x1024, .f32⟩
  | 85 => ⟨S4096x1024, .f32⟩
  | 86 => ⟨S1x768x1024, .f32⟩
  | 87 => ⟨S768x1024, .f32⟩
  | 88 => ⟨S1024x768, .f32⟩
  | 89 => ⟨S4096x768, .f32⟩
  | 90 => ⟨S1x768x1024, .f32⟩
  | 91 => ⟨S768x1024, .f32⟩
  | 92 => ⟨S1024x768, .f32⟩
  | 93 => ⟨S4096x768, .f32⟩
  | 94 => ⟨S4096x768, .f32⟩
  | 95 => ⟨S4096x768, .f32⟩
  | 96 => ⟨S_, .f32⟩
  | 97 => ⟨S4096x768, .f32⟩
  | 98 => ⟨S4096x768, .f32⟩
  | 99 => ⟨S_, .f32⟩
  | 100 => ⟨S4096x768, .f32⟩
  | 101 => ⟨S4096x768, .f32⟩
  | 102 => ⟨S4096x768, .f32⟩
  | 103 => ⟨S4096x768, .f32⟩
  | 104 => ⟨S1x1024x768, .f32⟩
  | 105 => ⟨S1024x768, .f32⟩
  | 106 => ⟨S768x1024, .f32⟩
  | 107 => ⟨S4096x1024, .f32⟩
  | 108 => ⟨S4096x1, .f32⟩
  | 109 => ⟨S4096x1024, .f32⟩
  | 110 => ⟨S4096x1024, .f32⟩
  | 111 => ⟨S4096x1024, .f32⟩
  | 112 => ⟨S1x768x1024, .f32⟩
  | 113 => ⟨S768x1024, .f32⟩
  | 114 => ⟨S1024x768, .f32⟩
  | 115 => ⟨S4096x768, .f32⟩
  | 116 => ⟨S1x768x1024, .f32⟩
  | 117 => ⟨S768x1024, .f32⟩
  | 118 => ⟨S1024x768, .f32⟩
  | 119 => ⟨S4096x768, .f32⟩
  | 120 => ⟨S4096x768, .f32⟩
  | 121 => ⟨S4096x768, .f32⟩
  | 122 => ⟨S_, .f32⟩
  | 123 => ⟨S4096x768, .f32⟩
  | 124 => ⟨S4096x768, .f32⟩
  | 125 => ⟨S_, .f32⟩
  | 126 => ⟨S4096x768, .f32⟩
  | 127 => ⟨S4096x768, .f32⟩
  | _ => ⟨S4x1024x1024, .f32⟩

abbrev hbmTy0_1 (i : Nat) : BufTy := match i % 128 with
  | 0 => ⟨S4096x768, .f32⟩
  | 1 => ⟨S4096x768, .f32⟩
  | 2 => ⟨S1x1024x768, .f32⟩
  | 3 => ⟨S1024x768, .f32⟩
  | 4 => ⟨S768x1024, .f32⟩
  | 5 => ⟨S4096x1024, .f32⟩
  | 6 => ⟨S4096x1, .f32⟩
  | 7 => ⟨S4096x1024, .f32⟩
  | 8 => ⟨S4096x1024, .f32⟩
  | 9 => ⟨S4096x1024, .f32⟩
  | 10 => ⟨S1x768x1024, .f32⟩
  | 11 => ⟨S768x1024, .f32⟩
  | 12 => ⟨S1024x768, .f32⟩
  | 13 => ⟨S4096x768, .f32⟩
  | 14 => ⟨S1x768x1024, .f32⟩
  | 15 => ⟨S768x1024, .f32⟩
  | 16 => ⟨S1024x768, .f32⟩
  | 17 => ⟨S4096x768, .f32⟩
  | 18 => ⟨S4096x768, .f32⟩
  | 19 => ⟨S4096x768, .f32⟩
  | 20 => ⟨S_, .f32⟩
  | 21 => ⟨S4096x768, .f32⟩
  | 22 => ⟨S4096x768, .f32⟩
  | 23 => ⟨S_, .f32⟩
  | 24 => ⟨S4096x768, .f32⟩
  | 25 => ⟨S4096x768, .f32⟩
  | 26 => ⟨S4096x768, .f32⟩
  | 27 => ⟨S4096x768, .f32⟩
  | 28 => ⟨S1x1024x768, .f32⟩
  | 29 => ⟨S1024x768, .f32⟩
  | 30 => ⟨S768x1024, .f32⟩
  | 31 => ⟨S4096x1024, .f32⟩
  | 32 => ⟨S4096x1, .f32⟩
  | 33 => ⟨S4096x1024, .f32⟩
  | 34 => ⟨S4096x1024, .f32⟩
  | 35 => ⟨S4096x1024, .f32⟩
  | 36 => ⟨S1x768x1024, .f32⟩
  | 37 => ⟨S768x1024, .f32⟩
  | 38 => ⟨S1024x768, .f32⟩
  | 39 => ⟨S4096x768, .f32⟩
  | 40 => ⟨S1x768x1024, .f32⟩
  | 41 => ⟨S768x1024, .f32⟩
  | 42 => ⟨S1024x768, .f32⟩
  | 43 => ⟨S4096x768, .f32⟩
  | 44 => ⟨S4096x768, .f32⟩
  | 45 => ⟨S4096x768, .f32⟩
  | 46 => ⟨S_, .f32⟩
  | 47 => ⟨S4096x768, .f32⟩
  | 48 => ⟨S4096x768, .f32⟩
  | 49 => ⟨S_, .f32⟩
  | 50 => ⟨S4096x768, .f32⟩
  | 51 => ⟨S4096x768, .f32⟩
  | 52 => ⟨S4096x768, .f32⟩
  | 53 => ⟨S4096x768, .f32⟩
  | 54 => ⟨S1x1024x768, .f32⟩
  | 55 => ⟨S1024x768, .f32⟩
  | 56 => ⟨S768x1024, .f32⟩
  | 57 => ⟨S4096x1024, .f32⟩
  | 58 => ⟨S4096x1, .f32⟩
  | 59 => ⟨S4096x1024, .f32⟩
  | 60 => ⟨S4096x1024, .f32⟩
  | 61 => ⟨S4096x1024, .f32⟩
  | 62 => ⟨S1x768x1024, .f32⟩
  | 63 => ⟨S768x1024, .f32⟩
  | 64 => ⟨S1024x768, .f32⟩
  | 65 => ⟨S4096x768, .f32⟩
  | 66 => ⟨S1x768x1024, .f32⟩
  | 67 => ⟨S768x1024, .f32⟩
  | 68 => ⟨S1024x768, .f32⟩
  | 69 => ⟨S4096x768, .f32⟩
  | 70 => ⟨S4096x768, .f32⟩
  | 71 => ⟨S4096x768, .f32⟩
  | 72 => ⟨S_, .f32⟩
  | 73 => ⟨S4096x768, .f32⟩
  | 74 => ⟨S4096x768, .f32⟩
  | 75 => ⟨S_, .f32⟩
  | 76 => ⟨S4096x768, .f32⟩
  | 77 => ⟨S4096x768, .f32⟩
  | 78 => ⟨S4096x768, .f32⟩
  | 79 => ⟨S4096x768, .f32⟩
  | 80 => ⟨S1x1024x768, .f32⟩
  | 81 => ⟨S1024x768, .f32⟩
  | 82 => ⟨S768x1024, .f32⟩
  | 83 => ⟨S4096x1024, .f32⟩
  | 84 => ⟨S4096x1, .f32⟩
  | 85 => ⟨S4096x1024, .f32⟩
  | 86 => ⟨S4096x1024, .f32⟩
  | 87 => ⟨S4096x1024, .f32⟩
  | 88 => ⟨S1x768x1024, .f32⟩
  | 89 => ⟨S768x1024, .f32⟩
  | 90 => ⟨S1024x768, .f32⟩
  | 91 => ⟨S4096x768, .f32⟩
  | 92 => ⟨S1x768x1024, .f32⟩
  | 93 => ⟨S768x1024, .f32⟩
  | 94 => ⟨S1024x768, .f32⟩
  | 95 => ⟨S4096x768, .f32⟩
  | 96 => ⟨S4096x768, .f32⟩
  | 97 => ⟨S4096x768, .f32⟩
  | 98 => ⟨S_, .f32⟩
  | 99 => ⟨S4096x768, .f32⟩
  | 100 => ⟨S4096x768, .f32⟩
  | 101 => ⟨S_, .f32⟩
  | 102 => ⟨S4096x768, .f32⟩
  | 103 => ⟨S4096x768, .f32⟩
  | 104 => ⟨S4096x768, .f32⟩
  | 105 => ⟨S4096x768, .f32⟩
  | 106 => ⟨S1x1024x768, .f32⟩
  | 107 => ⟨S1024x768, .f32⟩
  | 108 => ⟨S768x1024, .f32⟩
  | 109 => ⟨S4096x1024, .f32⟩
  | 110 => ⟨S4096x1, .f32⟩
  | 111 => ⟨S4096x1024, .f32⟩
  | 112 => ⟨S4096x1024, .f32⟩
  | 113 => ⟨S4096x1024, .f32⟩
  | 114 => ⟨S4x1024x1024, .f32⟩
  | _ => ⟨S4x1024x1024, .f32⟩

abbrev hbmTy (i : Nat) : BufTy := match i / 128 with
  | 0 => hbmTy0_0 i
  | 1 => hbmTy0_1 i
  | _ => ⟨S4x1024x1024, .f32⟩

abbrev bufTy : (tb : Table) → Fin (tcTables nBuf tb) → BufTy
  | .hbm, ⟨i, _⟩ => hbmTy i
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call3_v0 : Ref sig .tc := ⟨.hbm, 120, rfl⟩
abbrev main_call3_v1 : Ref sig .tc := ⟨.hbm, 121, rfl⟩
abbrev main_call3_cst : Ref sig .tc := ⟨.hbm, 122, rfl⟩
abbrev main_call3_v2 : Ref sig .tc := ⟨.hbm, 123, rfl⟩
abbrev main_call3_v3 : Ref sig .tc := ⟨.hbm, 124, rfl⟩
abbrev main_call3_cst_0 : Ref sig .tc := ⟨.hbm, 125, rfl⟩
abbrev main_call3_v4 : Ref sig .tc := ⟨.hbm, 126, rfl⟩
abbrev main_call3_v5 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call4_v0 : Ref sig .tc := ⟨.hbm, 146, rfl⟩
abbrev main_call4_v1 : Ref sig .tc := ⟨.hbm, 147, rfl⟩
abbrev main_call4_cst : Ref sig .tc := ⟨.hbm, 148, rfl⟩
abbrev main_call4_v2 : Ref sig .tc := ⟨.hbm, 149, rfl⟩
abbrev main_call4_v3 : Ref sig .tc := ⟨.hbm, 150, rfl⟩
abbrev main_call4_cst_0 : Ref sig .tc := ⟨.hbm, 151, rfl⟩
abbrev main_call4_v4 : Ref sig .tc := ⟨.hbm, 152, rfl⟩
abbrev main_call4_v5 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_call5_v0 : Ref sig .tc := ⟨.hbm, 172, rfl⟩
abbrev main_call5_v1 : Ref sig .tc := ⟨.hbm, 173, rfl⟩
abbrev main_call5_cst : Ref sig .tc := ⟨.hbm, 174, rfl⟩
abbrev main_call5_v2 : Ref sig .tc := ⟨.hbm, 175, rfl⟩
abbrev main_call5_v3 : Ref sig .tc := ⟨.hbm, 176, rfl⟩
abbrev main_call5_cst_0 : Ref sig .tc := ⟨.hbm, 177, rfl⟩
abbrev main_call5_v4 : Ref sig .tc := ⟨.hbm, 178, rfl⟩
abbrev main_call5_v5 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_call6_v0 : Ref sig .tc := ⟨.hbm, 198, rfl⟩
abbrev main_call6_v1 : Ref sig .tc := ⟨.hbm, 199, rfl⟩
abbrev main_call6_cst : Ref sig .tc := ⟨.hbm, 200, rfl⟩
abbrev main_call6_v2 : Ref sig .tc := ⟨.hbm, 201, rfl⟩
abbrev main_call6_v3 : Ref sig .tc := ⟨.hbm, 202, rfl⟩
abbrev main_call6_cst_0 : Ref sig .tc := ⟨.hbm, 203, rfl⟩
abbrev main_call6_v4 : Ref sig .tc := ⟨.hbm, 204, rfl⟩
abbrev main_call6_v5 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_call7_v0 : Ref sig .tc := ⟨.hbm, 224, rfl⟩
abbrev main_call7_v1 : Ref sig .tc := ⟨.hbm, 225, rfl⟩
abbrev main_call7_cst : Ref sig .tc := ⟨.hbm, 226, rfl⟩
abbrev main_call7_v2 : Ref sig .tc := ⟨.hbm, 227, rfl⟩
abbrev main_call7_v3 : Ref sig .tc := ⟨.hbm, 228, rfl⟩
abbrev main_call7_cst_0 : Ref sig .tc := ⟨.hbm, 229, rfl⟩
abbrev main_call7_v4 : Ref sig .tc := ⟨.hbm, 230, rfl⟩
abbrev main_call7_v5 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩

abbrev nD : Nat := 1
abbrev τ : Topo := Topo.v7x

variable {F : FTy → Type} [FloatOps F]

class Facts₀ : Prop where
  shapeCasts_S4x1024x1024_S4096x1024 : S4x1024x1024.ShapeCasts S4096x1024
  shapeCasts_S4x1024x2_S4096x2 : S4x1024x2.ShapeCasts S4096x2
  bcast_S_S4096x8 : S_.BroadcastsInDim S4096x8 (![] : Fin 0 → Fin S4096x8.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x2 : S_.BroadcastsInDim S4096x2 (![] : Fin 0 → Fin S4096x2.rank)
  bcast_S4096x1_S4096x2_0_1 : S4096x1.BroadcastsInDim S4096x2 (![0, 1] : Fin 2 → Fin S4096x2.rank)
  bcast_S4096x2_S4096x2x1_0_1 : S4096x2.BroadcastsInDim S4096x2x1 (![0, 1] : Fin 2 → Fin S4096x2x1.rank)
  concatenates_S4096x2x1_S4096x2x1_S4096x2x2_d2 : Shape.Concatenates [S4096x2x1, S4096x2x1] S4096x2x2 2
  bcast_S_S4096x1024 : S_.BroadcastsInDim S4096x1024 (![] : Fin 0 → Fin S4096x1024.rank)
  slices_S8x768x1024_S1x768x1024_0_0_0 : S8x768x1024.Slices ![0, 0, 0] S1x768x1024
  shapeCasts_S1x768x1024_S768x1024 : S1x768x1024.ShapeCasts S768x1024
  transposes_S768x1024_S1024x768_1_0 : S768x1024.Transposes [1, 0] S1024x768
  bcast_S_S4096x768 : S_.BroadcastsInDim S4096x768 (![] : Fin 0 → Fin S4096x768.rank)
  slices_S8x1024x768_S1x1024x768_0_0_0 : S8x1024x768.Slices ![0, 0, 0] S1x1024x768
  shapeCasts_S1x1024x768_S1024x768 : S1x1024x768.ShapeCasts S1024x768
  transposes_S1024x768_S768x1024_1_0 : S1024x768.Transposes [1, 0] S768x1024
  slices_S4096x8_S4096x1_0_0 : S4096x8.Slices ![0, 0] S4096x1
  bcast_S4096x1_S4096x1024_0_1 : S4096x1.BroadcastsInDim S4096x1024 (![0, 1] : Fin 2 → Fin S4096x1024.rank)
  slices_S8x768x1024_S1x768x1024_1_0_0 : S8x768x1024.Slices ![1, 0, 0] S1x768x1024
  slices_S8x1024x768_S1x1024x768_1_0_0 : S8x1024x768.Slices ![1, 0, 0] S1x1024x768
  slices_S4096x8_S4096x1_0_1 : S4096x8.Slices ![0, 1] S4096x1
  slices_S8x768x1024_S1x768x1024_2_0_0 : S8x768x1024.Slices ![2, 0, 0] S1x768x1024
  slices_S8x1024x768_S1x1024x768_2_0_0 : S8x1024x768.Slices ![2, 0, 0] S1x1024x768
  slices_S4096x8_S4096x1_0_2 : S4096x8.Slices ![0, 2] S4096x1
  slices_S8x768x1024_S1x768x1024_3_0_0 : S8x768x1024.Slices ![3, 0, 0] S1x768x1024
  slices_S8x1024x768_S1x1024x768_3_0_0 : S8x1024x768.Slices ![3, 0, 0] S1x1024x768
  slices_S4096x8_S4096x1_0_3 : S4096x8.Slices ![0, 3] S4096x1
  slices_S8x768x1024_S1x768x1024_4_0_0 : S8x768x1024.Slices ![4, 0, 0] S1x768x1024
  slices_S8x1024x768_S1x1024x768_4_0_0 : S8x1024x768.Slices ![4, 0, 0] S1x1024x768
  slices_S4096x8_S4096x1_0_4 : S4096x8.Slices ![0, 4] S4096x1
  slices_S8x768x1024_S1x768x1024_5_0_0 : S8x768x1024.Slices ![5, 0, 0] S1x768x1024
  slices_S8x1024x768_S1x1024x768_5_0_0 : S8x1024x768.Slices ![5, 0, 0] S1x1024x768
  slices_S4096x8_S4096x1_0_5 : S4096x8.Slices ![0, 5] S4096x1
  slices_S8x768x1024_S1x768x1024_6_0_0 : S8x768x1024.Slices ![6, 0, 0] S1x768x1024
  slices_S8x1024x768_S1x1024x768_6_0_0 : S8x1024x768.Slices ![6, 0, 0] S1x1024x768
  slices_S4096x8_S4096x1_0_6 : S4096x8.Slices ![0, 6] S4096x1
  slices_S8x768x1024_S1x768x1024_7_0_0 : S8x768x1024.Slices ![7, 0, 0] S1x768x1024
  slices_S8x1024x768_S1x1024x768_7_0_0 : S8x1024x768.Slices ![7, 0, 0] S1x1024x768
  slices_S4096x8_S4096x1_0_7 : S4096x8.Slices ![0, 7] S4096x1
  shapeCasts_S4096x1024_S4x1024x1024 : S4096x1024.ShapeCasts S4x1024x1024
  scatter_S4096x8_S4096x2x2_S4096x2_n_01_01_2_wf : ScatterDims.WF S4096x8 S4096x2x2 S4096x2 [] [0, 1] [0, 1] 2
  dot_S4096x1024_S1024x768_S4096x768_1_0_0_1_n_n_wf : DotDims.WF S4096x1024 S1024x768 S4096x768 [1] [0] [0] [1] [] []
  dot_S4096x768_S768x1024_S4096x1024_1_0_0_1_n_n_wf : DotDims.WF S4096x768 S768x1024 S4096x1024 [1] [0] [0] [1] [] []

variable [Facts₀]

def scatter_S4096x8_S4096x2x2_S4096x2_n_01_01_2 : ScatterDims S4096x8 S4096x2x2 S4096x2 where
  updateWindowDims := []
  insertedWindowDims := [0, 1]
  scatterDimsToOperandDims := [0, 1]
  indexVectorDim := 2
  wf := scatter_S4096x8_S4096x2x2_S4096x2_n_01_01_2_wf
def dot_S4096x1024_S1024x768_S4096x768_1_0_0_1_n_n : DotDims S4096x1024 S1024x768 S4096x768 where
  lhsContracting := [1]
  rhsContracting := [0]
  lhsNonContracting := [0]
  rhsNonContracting := [1]
  lhsBatch := []
  rhsBatch := []
  wf := dot_S4096x1024_S1024x768_S4096x768_1_0_0_1_n_n_wf
def dot_S4096x768_S768x1024_S4096x1024_1_0_0_1_n_n : DotDims S4096x768 S768x1024 S4096x1024 where
  lhsContracting := [1]
  rhsContracting := [0]
  lhsNonContracting := [0]
  rhsNonContracting := [1]
  lhsBatch := []
  rhsBatch := []
  wf := dot_S4096x768_S768x1024_S4096x1024_1_0_0_1_n_n_wf

class Facts : Prop extends Facts₀ where

variable [Facts]
-- ==== Proof.Spec.lean ====
/-
  The mixture-of-experts layer both programs compute, stated once, index by index, on the extended reals.

  For a token `r` (a row of the flattened activations `X`, 4096 × 1024), an expert `e` and an inner unit `j`:
  the gate pre-activation is `g = ∑ₖ X[r,k]·Wg[e,j,k]`, the up projection `u = ∑ₖ X[r,k]·Wu[e,j,k]`, the hidden value
  `silu(g)·u = (g · logistic g) · u`; the expert's output at column `h` is `∑ⱼ hidden[j]·Wd[e,h,j]`; and the layer's
  output is the zero word plus the experts' outputs weighted by the combine matrix `C[r,e]`, summed over the eight
  experts. Sums over a finite index type in a commutative monoid: no order is fixed and nothing here needs finiteness.
-/
import Idealize.ShloMosaic.PureOps.Ideal
import Idealize.ShloMosaic.Lib.ValueIdx

noncomputable section

open scoped BigOperators

namespace Cert.MoeSpec

open Idealize.ShloMosaic Idealize.ShloMosaic.ValueIdx

/-- Tokens × hidden width. -/
abbrev STok : Shape := ⟨2, ![4096, 1024]⟩
/-- Tokens × experts: the combine weights. -/
abbrev SComb : Shape := ⟨2, ![4096, 8]⟩
/-- Experts × inner width × hidden width: the gate and the up weights. -/
abbrev SUp : Shape := ⟨3, ![8, 768, 1024]⟩
/-- Experts × hidden width × inner width: the down weights. -/
abbrev SDown : Shape := ⟨3, ![8, 1024, 768]⟩

/-- `silu(g) · u` for token `r`, expert `e`, inner unit `j`. -/
def hidden (X : STok.Idx → EReal) (Wg Wu : SUp.Idx → EReal) (e : Fin 8) (r : Fin 4096) (j : Fin 768) : EReal :=
  ((∑ k : Fin 1024, X (ix2 r k) * Wg (ix3 e j k)) * Ideal.logistic (∑ k : Fin 1024, X (ix2 r k) * Wg (ix3 e j k)))
    * (∑ k : Fin 1024, X (ix2 r k) * Wu (ix3 e j k))

/-- Expert `e`'s output for token `r` at column `h`. -/
def expertOut (X : STok.Idx → EReal) (Wg Wu : SUp.Idx → EReal) (Wd : SDown.Idx → EReal) (e : Fin 8) (r : Fin 4096)
    (h : Fin 1024) : EReal :=
  ∑ j : Fin 768, hidden X Wg Wu e r j * Wd (ix3 e h j)

/-- Expert `e`'s weighted contribution at an index of the output. -/
def addend (X : STok.Idx → EReal) (C : SComb.Idx → EReal) (Wg Wu : SUp.Idx → EReal) (Wd : SDown.Idx → EReal)
    (e : Fin 8) (i : STok.Idx) : EReal :=
  C (ix2 (i 0) e) * expertOut X Wg Wu Wd e (i 0) (i 1)

/-- The layer's output: the zero word plus the eight weighted expert outputs. -/
def total (X : STok.Idx → EReal) (C : SComb.Idx → EReal) (Wg Wu : SUp.Idx → EReal) (Wd : SDown.Idx → EReal)
    (i : STok.Idx) : EReal :=
  Ideal.ofBits .f32 0x00000000#32 + ∑ e : Fin 8, addend X C Wg Wu Wd e i

/-- Eight terms added one after the other onto `z` are `z` plus their sum (associativity only). -/
theorem chain_eight (z : EReal) (a : Fin 8 → EReal) :
    (((((((z + a 0) + a 1) + a 2) + a 3) + a 4) + a 5) + a 6) + a 7 = z + ∑ e : Fin 8, a e := by
  rw [Fin.sum_univ_eight]
  simp only [add_assoc]

/-- A sum over the first eight naturals is the sum over `Fin 8`. -/
theorem range_eight (z : EReal) (f : ℕ → EReal) :
    z + ∑ s ∈ Finset.range 8, f s = z + ∑ e : Fin 8, f e.val := by
  rw [Fin.sum_univ_eq_sum_range]

/-! ## The same, inside one block

The kernel sees one token tile (512 rows), one expert's fused gate-and-up weights (1536 rows: the gate's 768, then the
up projection's 768) and one expert's down weights at a time. -/

/-- A tile of 512 tokens. -/
abbrev SBlkTok : Shape := ⟨2, ![512, 1024]⟩
/-- One expert's fused gate (rows 0 … 767) and up (rows 768 … 1535) weights. -/
abbrev SBlkUp : Shape := ⟨3, ![1, 1536, 1024]⟩
/-- One expert's down weights. -/
abbrev SBlkDown : Shape := ⟨3, ![1, 1024, 768]⟩
/-- All experts' fused gate and up weights. -/
abbrev SFused : Shape := ⟨3, ![8, 1536, 1024]⟩

/-- Inner unit `j`'s gate row of the fused weights. -/
abbrev gateRow (j : Fin 768) : Fin 1536 := ⟨j.val, by have := j.isLt; omega⟩
/-- Inner unit `j`'s up row of the fused weights. -/
abbrev upRow (j : Fin 768) : Fin 1536 := ⟨768 + j.val, by have := j.isLt; omega⟩

/-- The gate weights inside the fused array. -/
def fusedGate (W : SFused.Idx → EReal) : SUp.Idx → EReal := fun i => W (ix3 (i 0) (gateRow (i 1)) (i 2))
/-- The up weights inside the fused array. -/
def fusedUp (W : SFused.Idx → EReal) : SUp.Idx → EReal := fun i => W (ix3 (i 0) (upRow (i 1)) (i 2))

/-- `silu(g) · u` for row `p` of a token tile against one expert's fused weights. -/
def blockHidden (x : SBlkTok.Idx → EReal) (w : SBlkUp.Idx → EReal) (p : Fin 512) (j : Fin 768) : EReal :=
  ((∑ k : Fin 1024, x (ix2 p k) * w (ix3 0 (gateRow j) k)) * Ideal.logistic (∑ k : Fin 1024, x (ix2 p k) * w (ix3 0 (gateRow j) k)))
    * (∑ k : Fin 1024, x (ix2 p k) * w (ix3 0 (upRow j) k))

/-- One expert's output for row `p` of a token tile at column `q`. -/
def blockOut (x : SBlkTok.Idx → EReal) (w : SBlkUp.Idx → EReal) (d : SBlkDown.Idx → EReal) (p : Fin 512) (q : Fin 1024) : EReal :=
  ∑ j : Fin 768, blockHidden x w p j * d (ix3 0 q j)

/-- A tile row that is row `r` of the activations, against blocks that are expert `e`'s slices of the fused and the down
    weights, gives expert `e`'s output for token `r`. -/
theorem blockOut_eq (x : SBlkTok.Idx → EReal) (w : SBlkUp.Idx → EReal) (d : SBlkDown.Idx → EReal)
    (X : STok.Idx → EReal) (W : SFused.Idx → EReal) (Wd : SDown.Idx → EReal) (e : Fin 8) (r : Fin 4096) (p : Fin 512)
    (q : Fin 1024) (hx : ∀ k, x (ix2 p k) = X (ix2 r k)) (hw : ∀ a k, w (ix3 0 a k) = W (ix3 e a k))
    (hd : ∀ j, d (ix3 0 q j) = Wd (ix3 e q j)) :
    blockOut x w d p q = expertOut X (fusedGate W) (fusedUp W) Wd e r q := by
  unfold blockOut expertOut blockHidden hidden fusedGate fusedUp
  refine Finset.sum_congr rfl fun j _ => ?_
  simp only [hx, hw, hd]

end Cert.MoeSpec

end
-- ==== Proof.CaseValues.lean ====
/-
  What the kernel body leaves in the output tile's staging buffer, in its two control cases, as values.

  At an expert-0 point the body first stores the zero tile, then loads the four input blocks and the (just zeroed)
  output tile and stores the accumulating value over the whole tile; at any other point it skips the zeroing and
  accumulates onto what the buffer held. Each case's last store covers the whole tile, so the buffer ends at that
  store's value: the accumulating term of the input blocks and of the zero tile, or of the previous contents.
-/
import proofs.«106306_j35691178230103_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F]

/-- The zero offsets of a rank-2 whole-tile access. -/
theorem hz2 : (![0, 0] : Fin 2 → Nat) = fun _ => 0 := funext fun a => by fin_cases a <;> rfl
/-- The zero offsets of a rank-3 whole-block access. -/
theorem hz3 : (![0, 0, 0] : Fin 3 → Nat) = fun _ => 0 := funext fun a => by fin_cases a <;> rfl

/-- A point of a later expert: the buffer holding `xo` ends at the accumulating term over `xo`. -/
theorem out_B (c : Dev nD) (i : grid0.Coords) (a2 : Memref sig .tc .vmem S512x1024 .bf16) (h2 : a2.IsWhole)
    (a3 : Memref sig .tc .vmem S1x1536x1024 .bf16) (h3 : a3.IsWhole) (a4 : Memref sig .tc .vmem S1x1024x768 .bf16) (h4 : a4.IsWhole)
    (a5 : Memref sig .tc .vmem S512x8 .f32) (h5 : a5.IsWhole) (a6 : Memref sig .tc .vmem S512x1024 .f32) (h6 : a6.IsWhole)
    (hc : ¬cond0_0 i) (x0 : Vec F S512x1024 .bf16) (x1 : Vec F S1x1536x1024 .bf16) (x2 : Vec F S1x1024x768 .bf16)
    (x3 : Vec F S512x8 .f32) (xo : Vec F S512x1024 .f32) :
    out0_B_4 c i a2 h2 a3 h3 a4 h4 a5 h5 a6 h6 hc x0 x1 x2 x3 xo = k0_pay2 i x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz2]
  simp only [View.readAt_eq_ld, h2.read_unread, h3.read_unread, h4.read_unread, h5.read_unread, h6.read_unread,
    View.ld_unit_zero (S := S512x1024) hz2, View.ld_unit_zero (S := S1x1536x1024) hz3,
    View.ld_unit_zero (S := S1x1024x768) hz3, View.ld_unit_zero (S := S512x8) hz2]

/-- An expert-0 point: the buffer ends at the accumulating term over the zero tile (the load after the zeroing
    store reads that store's value back). -/
theorem out_A (c : Dev nD) (i : grid0.Coords) (a2 : Memref sig .tc .vmem S512x1024 .bf16) (h2 : a2.IsWhole)
    (a3 : Memref sig .tc .vmem S1x1536x1024 .bf16) (h3 : a3.IsWhole) (a4 : Memref sig .tc .vmem S1x1024x768 .bf16) (h4 : a4.IsWhole)
    (a5 : Memref sig .tc .vmem S512x8 .f32) (h5 : a5.IsWhole) (a6 : Memref sig .tc .vmem S512x1024 .f32) (h6 : a6.IsWhole)
    (hc : cond0_0 i) (x0 : Vec F S512x1024 .bf16) (x1 : Vec F S1x1536x1024 .bf16) (x2 : Vec F S1x1024x768 .bf16)
    (x3 : Vec F S512x8 .f32) :
    out0_A_4 c i a2 h2 a3 h3 a4 h4 a5 h5 a6 h6 hc x0 x1 x2 x3 = k0_pay2 i x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S512x1024) hz2, View.readCov_unit_zero (S := S512x1024) _ hz2]
  simp only [View.readAt_eq_ld, h2.read_unread, h3.read_unread, h4.read_unread, h5.read_unread,
    View.ld_unit_zero (S := S512x1024) hz2, View.ld_unit_zero (S := S1x1536x1024) hz3,
    View.ld_unit_zero (S := S1x1024x768) hz3, View.ld_unit_zero (S := S512x8) hz2]

end Cert.KernelIdeal.Hand

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.PayloadIdx.lean ====
import proofs.«106306_j35691178230103_2_alg».proof.Proof.Gen.KernelIdeal.Skeleton
import proofs.«106306_j35691178230103_2_alg».proof.Proof.Spec
import proofs.«106306_j35691178230103_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.MoeSpec

/-! ## The two products

Both `tpu.matmul`s contract axis 1 of the left operand with axis 1 of the right one: the entry at `(p, c)` is the sum over
`k` of `lhs[p, k] · rhs[c, k]`. -/

theorem pay2_mm1_lhs0 (i : S512x1536.Idx) (q : dot_S512x1024_S1536x1024_S512x1536_1_1_0_0_n_n.contr.Idx) :
    (dot_S512x1024_S1536x1024_S512x1536_1_1_0_0_n_n.lhsIdx i q 0).val = (i 0).val := by
  unfold DotDims.lhsIdx
  rw [dif_neg (show ¬(0 : Fin S512x1024.rank) ∈ dot_S512x1024_S1536x1024_S512x1536_1_1_0_0_n_n.lhsBatch by decide), dif_pos (show (0 : Fin S512x1024.rank) ∈ dot_S512x1024_S1536x1024_S512x1536_1_1_0_0_n_n.lhsNonContracting by decide)]
  rfl
theorem pay2_mm1_lhs1 (i : S512x1536.Idx) (q : dot_S512x1024_S1536x1024_S512x1536_1_1_0_0_n_n.contr.Idx) :
    (dot_S512x1024_S1536x1024_S512x1536_1_1_0_0_n_n.lhsIdx i q 1).val = (q ⟨0, by decide⟩).val :=
  dot_S512x1024_S1536x1024_S512x1536_1_1_0_0_n_n.lhsIdx_val_of_single rfl i q
theorem pay2_mm1_rhs0 (i : S512x1536.Idx) (q : dot_S512x1024_S1536x1024_S512x1536_1_1_0_0_n_n.contr.Idx) :
    (dot_S512x1024_S1536x1024_S512x1536_1_1_0_0_n_n.rhsIdx i q 0).val = (i 1).val := by
  unfold DotDims.rhsIdx
  rw [dif_neg (show ¬(0 : Fin S1536x1024.rank) ∈ dot_S512x1024_S1536x1024_S512x1536_1_1_0_0_n_n.rhsBatch by decide), dif_pos (show (0 : Fin S1536x1024.rank) ∈ dot_S512x1024_S1536x1024_S512x1536_1_1_0_0_n_n.rhsNonContracting by decide)]
  rfl
theorem pay2_mm1_rhs1 (i : S512x1536.Idx) (q : dot_S512x1024_S1536x1024_S512x1536_1_1_0_0_n_n.contr.Idx) :
    (dot_S512x1024_S1536x1024_S512x1536_1_1_0_0_n_n.rhsIdx i q 1).val = (q ⟨0, by decide⟩).val :=
  dot_S512x1024_S1536x1024_S512x1536_1_1_0_0_n_n.rhsIdx_val_of_single rfl i q

/-- The first product at `(p, c)`: row `p` of the tokens against row `c` of the fused weights. -/
theorem pay2_mm1_apply (a : FVec Ideal S512x1024 .bf16) (b : FVec Ideal S1536x1024 .bf16) (p : Fin 512) (c : Fin 1536) :
    matmul dot_S512x1024_S1536x1024_S512x1536_1_1_0_0_n_n none a b (constant (F := Ideal) S512x1536 .f32 0x00000000#32) (ix2 p c)
      = ∑ k : Fin 1024, a (ix2 p k) * b (ix2 c k) := by
  refine (Ideal.matmul_constant_zero_apply (φ₁ := .bf16) (φ₂ := .bf16) dot_S512x1024_S1536x1024_S512x1536_1_1_0_0_n_n none a b (ix2 p c)).trans ?_
  rw [← Equiv.sum_comp (contrEquiv1 dot_S512x1024_S1536x1024_S512x1536_1_1_0_0_n_n 1024 rfl rfl).symm]
  refine Finset.sum_congr rfl fun k _ => ?_
  have hk := contrEquiv1_symm_val dot_S512x1024_S1536x1024_S512x1536_1_1_0_0_n_n 1024 rfl rfl k
  have el : dot_S512x1024_S1536x1024_S512x1536_1_1_0_0_n_n.lhsIdx (ix2 p c) ((contrEquiv1 dot_S512x1024_S1536x1024_S512x1536_1_1_0_0_n_n 1024 rfl rfl).symm k) = ix2 p k := funext fun ax => Fin.ext (by
    match ax with
    | ⟨0, _⟩ => exact pay2_mm1_lhs0 _ _
    | ⟨1, _⟩ => exact (pay2_mm1_lhs1 _ _).trans hk)
  have er : dot_S512x1024_S1536x1024_S512x1536_1_1_0_0_n_n.rhsIdx (ix2 p c) ((contrEquiv1 dot_S512x1024_S1536x1024_S512x1536_1_1_0_0_n_n 1024 rfl rfl).symm k) = ix2 c k := funext fun ax => Fin.ext (by
    match ax with
    | ⟨0, _⟩ => exact pay2_mm1_rhs0 _ _
    | ⟨1, _⟩ => exact (pay2_mm1_rhs1 _ _).trans hk)
  rw [el, er]

theorem pay2_mm2_lhs0 (i : S512x1024.Idx) (q : dot_S512x768_S1024x768_S512x1024_1_1_0_0_n_n.contr.Idx) :
    (dot_S512x768_S1024x768_S512x1024_1_1_0_0_n_n.lhsIdx i q 0).val = (i 0).val := by
  unfold DotDims.lhsIdx
  rw [dif_neg (show ¬(0 : Fin S512x768.rank) ∈ dot_S512x768_S1024x768_S512x1024_1_1_0_0_n_n.lhsBatch by decide), dif_pos (show (0 : Fin S512x768.rank) ∈ dot_S512x768_S1024x768_S512x1024_1_1_0_0_n_n.lhsNonContracting by decide)]
  rfl
theorem pay2_mm2_lhs1 (i : S512x1024.Idx) (q : dot_S512x768_S1024x768_S512x1024_1_1_0_0_n_n.contr.Idx) :
    (dot_S512x768_S1024x768_S512x1024_1_1_0_0_n_n.lhsIdx i q 1).val = (q ⟨0, by decide⟩).val :=
  dot_S512x768_S1024x768_S512x1024_1_1_0_0_n_n.lhsIdx_val_of_single rfl i q
theorem pay2_mm2_rhs0 (i : S512x1024.Idx) (q : dot_S512x768_S1024x768_S512x1024_1_1_0_0_n_n.contr.Idx) :
    (dot_S512x768_S1024x768_S512x1024_1_1_0_0_n_n.rhsIdx i q 0).val = (i 1).val := by
  unfold DotDims.rhsIdx
  rw [dif_neg (show ¬(0 : Fin S1024x768.rank) ∈ dot_S512x768_S1024x768_S512x1024_1_1_0_0_n_n.rhsBatch by decide), dif_pos (show (0 : Fin S1024x768.rank) ∈ dot_S512x768_S1024x768_S512x1024_1_1_0_0_n_n.rhsNonContracting by decide)]
  rfl
theorem pay2_mm2_rhs1 (i : S512x1024.Idx) (q : dot_S512x768_S1024x768_S512x1024_1_1_0_0_n_n.contr.Idx) :
    (dot_S512x768_S1024x768_S512x1024_1_1_0_0_n_n.rhsIdx i q 1).val = (q ⟨0, by decide⟩).val :=
  dot_S512x768_S1024x768_S512x1024_1_1_0_0_n_n.rhsIdx_val_of_single rfl i q

/-- The second product at `(p, q)`: row `p` of the hidden values against row `q` of the down weights. -/
theorem pay2_mm2_apply (a : FVec Ideal S512x768 .bf16) (b : FVec Ideal S1024x768 .bf16) (p : Fin 512) (q : Fin 1024) :
    matmul dot_S512x768_S1024x768_S512x1024_1_1_0_0_n_n none a b (constant (F := Ideal) S512x1024 .f32 0x00000000#32) (ix2 p q)
      = ∑ j : Fin 768, a (ix2 p j) * b (ix2 q j) := by
  refine (Ideal.matmul_constant_zero_apply (φ₁ := .bf16) (φ₂ := .bf16) dot_S512x768_S1024x768_S512x1024_1_1_0_0_n_n none a b (ix2 p q)).trans ?_
  rw [← Equiv.sum_comp (contrEquiv1 dot_S512x768_S1024x768_S512x1024_1_1_0_0_n_n 768 rfl rfl).symm]
  refine Finset.sum_congr rfl fun k _ => ?_
  have hk := contrEquiv1_symm_val dot_S512x768_S1024x768_S512x1024_1_1_0_0_n_n 768 rfl rfl k
  have el : dot_S512x768_S1024x768_S512x1024_1_1_0_0_n_n.lhsIdx (ix2 p q) ((contrEquiv1 dot_S512x768_S1024x768_S512x1024_1_1_0_0_n_n 768 rfl rfl).symm k) = ix2 p k := funext fun ax => Fin.ext (by
    match ax with
    | ⟨0, _⟩ => exact pay2_mm2_lhs0 _ _
    | ⟨1, _⟩ => exact (pay2_mm2_lhs1 _ _).trans hk)
  have er : dot_S512x768_S1024x768_S512x1024_1_1_0_0_n_n.rhsIdx (ix2 p q) ((contrEquiv1 dot_S512x768_S1024x768_S512x1024_1_1_0_0_n_n 768 rfl rfl).symm k) = ix2 q k := funext fun ax => Fin.ext (by
    match ax with
    | ⟨0, _⟩ => exact pay2_mm2_rhs0 _ _
    | ⟨1, _⟩ => exact (pay2_mm2_rhs1 _ _).trans hk)
  rw [el, er]

/-! ## The combine factor

The kernel multiplies the tile's combine weights by a one-hot row (column number = the expert's number), sums each row, and
broadcasts the column of sums over the 1024 output columns: at `(p, q)` this is the combine weight `x3[p, e]`. -/

/-- Two column numbers below eight, compared as 32-bit words: the comparison bit, widened and read signed, is `1` when
    they agree and `0` otherwise. -/
theorem pay2_onehot_word : ∀ a b : Fin 8,
    ((IntOp.cmpi .eq (BitVec.ofNat 32 a.val) (BitVec.ofNat 32 b.val)).setWidth 32).toInt = if a = b then 1 else 0 := by
  decide

/-- The one-hot factor at `(p, k)`: `1` in the expert's column, `0` elsewhere. -/
theorem pay2_onehot_apply (n : ℕ) (e : Fin 8) (hn : n = e.val) (p : Fin 512) (k : Fin 8) :
    (sitofp (F := Ideal) .f32 (extui 32 (cmpi .eq (iota .tc S512x8 32 [1] iota_S512x8_d1_w32) (broadcast S512x8 (BitVec.ofNat 32 n))) natLt_1_32) : FVec Ideal S512x8 .f32) (ix2 p k)
      = if k = e then 1 else 0 := by
  subst hn
  have hi : iota .tc S512x8 32 [1] iota_S512x8_d1_w32 (ix2 p k) = BitVec.ofNat 32 k.val :=
    iota_single_apply .tc S512x8 32 1 iota_S512x8_d1_w32 (ix2 p k)
  show (((((IntOp.cmpi .eq (iota .tc S512x8 32 [1] iota_S512x8_d1_w32 (ix2 p k)) (BitVec.ofNat 32 e.val)).setWidth 32).toInt : ℤ) : ℝ) : EReal) = _
  rw [hi, pay2_onehot_word k e]
  split <;> simp

/-- The combine factor at `(p, q)`: the row sum of the weights times the one-hot row is the expert's weight. -/
theorem pay2_combine_apply (n : ℕ) (e : Fin 8) (hn : n = e.val) (x3 : FVec Ideal S512x8 .f32) (p : Fin 512) (q : Fin 1024) :
    broadcastTo S512x1024 (shapeCast S512x1 (multiReduction (F := Ideal) .add [1] S512 (mulf (shapeCast S512x8 x3 shapeCasts_S512x8_S512x8) (sitofp (F := Ideal) .f32 (extui 32 (cmpi .eq (iota .tc S512x8 32 [1] iota_S512x8_d1_w32) (broadcast S512x8 (BitVec.ofNat 32 n))) natLt_1_32))) 0x00000000#32 reduces_S512x8_S512 (.inl rfl) rfl) shapeCasts_S512_S512x1) broadcasts_S512x1_S512x1024 (ix2 p q)
      = x3 (ix2 p e) := by
  refine (Cert.Keepdims.rowSum_keep_bcast_apply (M := 512) (K := 8) (N := 1024) _ 0x00000000#32 reduces_S512x8_S512 (.inl rfl) rfl shapeCasts_S512_S512x1 broadcasts_S512x1_S512x1024 p q).trans ?_
  rw [Finset.sum_eq_single e]
  · show (shapeCast S512x8 x3 shapeCasts_S512x8_S512x8) (ix2 p e) * _ = _
    rw [shapeCast_self, pay2_onehot_apply n e hn p e, if_pos rfl, mul_one]
  · intro k _ hk
    show _ * _ = 0
    rw [pay2_onehot_apply n e hn p k, if_neg hk, mul_zero]
  · intro h; exact absurd (Finset.mem_univ e) h

/-! ## The hidden values and the fused product -/

/-- The hidden values at `(p, j)` from the fused product `y`: `(g · logistic g) · u` with `g = y[p, j]` (the gate half)
    and `u = y[p, 768 + j]` (the up half). -/
theorem pay2_hidden_apply (y : FVec Ideal S512x1536 .f32) (p : Fin 512) (j : Fin 768) :
    (truncf .bf16 (mulf (mulf (extractStridedSlice S512x768 ![0, 0] y slices_S512x1536_o0_0_S512x768) (logistic (extractStridedSlice S512x768 ![0, 0] y slices_S512x1536_o0_0_S512x768))) (extractStridedSlice S512x768 ![0, 768] y slices_S512x1536_o0_768_S512x768)) bitsLt_bf16_f32 : FVec Ideal S512x768 .bf16) (ix2 p j)
      = (y (ix2 p (gateRow j)) * Ideal.logistic (y (ix2 p (gateRow j)))) * y (ix2 p (upRow j)) := by
  have hg : extractStridedSlice S512x768 ![0, 0] y slices_S512x1536_o0_0_S512x768 (ix2 p j) = y (ix2 p (gateRow j)) :=
    slice2_axis1_apply 0 y slices_S512x1536_o0_0_S512x768 p j (gateRow j) (Nat.zero_add _).symm
  have hu : extractStridedSlice S512x768 ![0, 768] y slices_S512x1536_o0_768_S512x768 (ix2 p j) = y (ix2 p (upRow j)) :=
    slice2_axis1_apply 768 y slices_S512x1536_o0_768_S512x768 p j (upRow j) rfl
  show (extractStridedSlice S512x768 ![0, 0] y slices_S512x1536_o0_0_S512x768 (ix2 p j) * Ideal.logistic (extractStridedSlice S512x768 ![0, 0] y slices_S512x1536_o0_0_S512x768 (ix2 p j))) * extractStridedSlice S512x768 ![0, 768] y slices_S512x1536_o0_768_S512x768 (ix2 p j) = _
  rw [hg, hu]

/-- The fused product at `(p, c)`: row `p` of the token tile against row `c` of the expert's fused weights. -/
theorem pay2_fused_apply (x0 : FVec Ideal S512x1024 .bf16) (x1 : FVec Ideal S1x1536x1024 .bf16) (p : Fin 512) (c : Fin 1536) :
    matmul dot_S512x1024_S1536x1024_S512x1536_1_1_0_0_n_n none (shapeCast S512x1024 x0 shapeCasts_S512x1024_S512x1024) (shapeCast S1536x1024 x1 shapeCasts_S1x1536x1024_S1536x1024) (constant (F := Ideal) S512x1536 .f32 0x00000000#32) (ix2 p c)
      = ∑ k : Fin 1024, x0 (ix2 p k) * x1 (ix3 0 c k) := by
  refine (pay2_mm1_apply _ _ p c).trans (Finset.sum_congr rfl fun k _ => ?_)
  rw [shapeCast_self, shapeCast_1ab_ab_apply]

/-- The accumulating store's value at an index. -/
theorem pay2_apply (i : grid0.Coords) (e : Fin 8) (he : (i 1).val = e.val) (x0 : FVec Ideal S512x1024 .bf16)
    (x1 : FVec Ideal S1x1536x1024 .bf16) (x2 : FVec Ideal S1x1024x768 .bf16) (x3 : FVec Ideal S512x8 .f32)
    (acc : FVec Ideal S512x1024 .f32) (p : Fin 512) (q : Fin 1024) :
    k0_pay2 (F := Ideal) i x0 x1 x2 x3 acc (ix2 p q) = acc (ix2 p q) + x3 (ix2 p e) * blockOut x0 x1 x2 p q := by
  unfold k0_pay2
  dsimp only
  rw [addf_apply, mulf_apply]
  refine congrArg₂ (· + ·) (congrFun (shapeCast_self acc _) (ix2 p q))
    (congrArg₂ (· * ·) (pay2_combine_apply (i 1).val e he x3 p q) ?_)
  refine (pay2_mm2_apply _ _ p q).trans ?_
  unfold blockOut
  refine Finset.sum_congr rfl fun j _ => ?_
  refine congrArg₂ (· * ·) ?_ (shapeCast_1ab_ab_apply x2 _ q j)
  refine (pay2_hidden_apply _ p j).trans ?_
  rw [pay2_fused_apply x0 x1 p (gateRow j), pay2_fused_apply x0 x1 p (upRow j)]
  rfl

/-- The zero block at an index. -/
theorem pay1_apply (j : S512x1024.Idx) : k0_pay1 (F := Ideal) j = Ideal.ofBits .f32 0x00000000#32 := rfl

end Cert.KernelIdeal.Hand

end
-- ==== Proof.KernelFold.lean ====
/-
  The accumulated output tile. The grid's 64 points are `t = 8·T + e`: token tile `T` (512 rows), expert `e`. At
  `e = 0` the body stores the zero tile and adds expert 0's weighted output to it; at every later `e` it adds expert
  `e`'s to what the point before left. So after the tile's last point the staging buffer holds the zero word plus the
  sum over the eight experts of `C[r, e] · expertOut e r h`, read at the tile's rows `r = 512·T + p`: the
  specification `total` over the arrays the region finds.
-/
import proofs.«106306_j35691178230103_2_alg».proof.Proof.Gen.KernelIdeal.Frame
import proofs.«106306_j35691178230103_2_alg».proof.Proof.CaseValues
import proofs.«106306_j35691178230103_2_alg».proof.Proof.PayloadIdx
import proofs.«106306_j35691178230103_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.MoeSpec

variable (m : (ℓ : Loc nD τ sig) → Buf (Elt Ideal) ℓ)

/-- The layer's output over the arrays the region finds. -/
def regionTotal (c : Dev nD) : S4096x1024.Idx → EReal :=
  total (V m c main_v1) (V m c main_v21) (fusedGate (V m c main_v23)) (fusedUp (V m c main_v23)) (V m c main_v24)

/-! ## Where each window's block sits at point `t = 8·T + e` -/

/-- The token tile is tile `t / 8`, all 1024 columns. -/
theorem idx_tok : ∀ t : Fin cfg0.N, win0_0.index t 0 = t.val / 8 ∧ win0_0.index t 1 = 0 :=
  (by decide +kernel : ∀ t : Fin grid0.N, win0_0.index t 0 = t.val / 8 ∧ win0_0.index t 1 = 0)
/-- The fused weights' block is expert `t % 8`'s. -/
theorem idx_fused : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)
/-- The down weights' block is expert `t % 8`'s. -/
theorem idx_down : ∀ t : Fin cfg0.N, win0_2.index t 0 = t.val % 8 ∧ win0_2.index t 1 = 0 ∧ win0_2.index t 2 = 0 :=
  (by decide +kernel : ∀ t : Fin grid0.N, win0_2.index t 0 = t.val % 8 ∧ win0_2.index t 1 = 0 ∧ win0_2.index t 2 = 0)
/-- The combine weights' block is tile `t / 8`'s rows, all eight columns. -/
theorem idx_comb : ∀ t : Fin cfg0.N, win0_3.index t 0 = t.val / 8 ∧ win0_3.index t 1 = 0 :=
  (by decide +kernel : ∀ t : Fin grid0.N, win0_3.index t 0 = t.val / 8 ∧ win0_3.index t 1 = 0)
/-- The grid's second coordinate is the expert. -/
theorem coord_expert : ∀ t : Fin cfg0.N, ((grid0.coords t) 1).val = t.val % 8 :=
  (by decide +kernel : ∀ t : Fin grid0.N, ((grid0.coords t) 1).val = t.val % 8)

/-- Row `p` of the token tile at point `t` is row `512·(t/8) + p` of the activations. -/
theorem tok_apply (c : Dev nD) (t : Fin cfg0.N) (p : Fin 512) (k : Fin 1024) (r : Fin 4096)
    (hr : r.val = 512 * (t.val / 8) + p.val) :
    (iblk m c 0 t : FVec Ideal S512x1024 .bf16) (ix2 p k) = V m c main_v1 (ix2 r k) := by
  unfold iblk
  rw [View.read_apply]
  show V m c main_v1 _ = V m c main_v1 _
  congr 1
  funext a
  apply Fin.ext
  match a with
  | ⟨0, _⟩ => show win0_0.index t 0 * 512 + 1 * p.val = r.val; rw [(idx_tok t).1]; omega
  | ⟨1, _⟩ => show win0_0.index t 1 * 1024 + 1 * k.val = k.val; rw [(idx_tok t).2]; omega

/-- The fused-weights block at point `t` is expert `t % 8`'s slice. -/
theorem fused_apply (c : Dev nD) (t : Fin cfg0.N) (a : Fin 1536) (k : Fin 1024) (e : Fin 8) (he : e.val = t.val % 8) :
    (iblk m c 1 t : FVec Ideal S1x1536x1024 .bf16) (ix3 0 a k) = V m c main_v23 (ix3 e a k) := by
  unfold iblk
  rw [View.read_apply]
  show V m c main_v23 _ = V m c main_v23 _
  congr 1
  funext b
  apply Fin.ext
  match b with
  | ⟨0, _⟩ => show win0_1.index t 0 * 1 + 1 * 0 = e.val; rw [(idx_fused t).1]; omega
  | ⟨1, _⟩ => show win0_1.index t 1 * 1536 + 1 * a.val = a.val; rw [(idx_fused t).2.1]; omega
  | ⟨2, _⟩ => show win0_1.index t 2 * 1024 + 1 * k.val = k.val; rw [(idx_fused t).2.2]; omega

/-- The down-weights block at point `t` is expert `t % 8`'s slice. -/
theorem down_apply (c : Dev nD) (t : Fin cfg0.N) (q : Fin 1024) (j : Fin 768) (e : Fin 8) (he : e.val = t.val % 8) :
    (iblk m c 2 t : FVec Ideal S1x1024x768 .bf16) (ix3 0 q j) = V m c main_v24 (ix3 e q j) := by
  unfold iblk
  rw [View.read_apply]
  show V m c main_v24 _ = V m c main_v24 _
  congr 1
  funext b
  apply Fin.ext
  match b with
  | ⟨0, _⟩ => show win0_2.index t 0 * 1 + 1 * 0 = e.val; rw [(idx_down t).1]; omega
  | ⟨1, _⟩ => show win0_2.index t 1 * 1024 + 1 * q.val = q.val; rw [(idx_down t).2.1]; omega
  | ⟨2, _⟩ => show win0_2.index t 2 * 768 + 1 * j.val = j.val; rw [(idx_down t).2.2]; omega

/-- Row `p` of the combine block at point `t` is row `512·(t/8) + p` of the combine matrix. -/
theorem comb_apply (c : Dev nD) (t : Fin cfg0.N) (p : Fin 512) (e : Fin 8) (r : Fin 4096)
    (hr : r.val = 512 * (t.val / 8) + p.val) :
    (iblk m c 3 t : FVec Ideal S512x8 .f32) (ix2 p e) = V m c main_v21 (ix2 r e) := by
  unfold iblk
  rw [View.read_apply]
  show V m c main_v21 _ = V m c main_v21 _
  congr 1
  funext a
  apply Fin.ext
  match a with
  | ⟨0, _⟩ => show win0_3.index t 0 * 512 + 1 * p.val = r.val; rw [(idx_comb t).1]; omega
  | ⟨1, _⟩ => show win0_3.index t 1 * 8 + 1 * e.val = e.val; rw [(idx_comb t).2]; omega

/-! ## One point's addend, and the fold over a tile's eight points -/

/-- A combine block's entry for expert `e` times that expert's output, at an index of the tile. -/
def blockAddend (cmb : S512x8.Idx → EReal) (x : S512x1024.Idx → EReal) (w : S1x1536x1024.Idx → EReal)
    (d : S1x1024x768.Idx → EReal) (e : Fin 8) (i : S512x1024.Idx) : EReal :=
  cmb (ix2 (i 0) e) * blockOut x w d (i 0) (i 1)

/-- What point `n` adds to the tile at a tile index: the point's combine entry times its expert's output. -/
def addAt (c : Dev nD) (n : ℕ) (i : S512x1024.Idx) : EReal :=
  if h : n < cfg0.N then
    blockAddend (iblk m c 3 ⟨n, h⟩) (iblk m c 0 ⟨n, h⟩) (iblk m c 1 ⟨n, h⟩) (iblk m c 2 ⟨n, h⟩)
      ⟨n % 8, Nat.mod_lt _ (by decide)⟩ i
  else 0

/-- The tile after a point that resets it. -/
def resetAt (c : Dev nD) (n : ℕ) (h : n < cfg0.N) : S512x1024.Idx → EReal :=
  k0_pay2 (F := Ideal) (grid0.coords ⟨n, h⟩) (iblk m c 0 ⟨n, h⟩) (iblk m c 1 ⟨n, h⟩) (iblk m c 2 ⟨n, h⟩) (iblk m c 3 ⟨n, h⟩)
    (k0_pay1 (F := Ideal))
/-- The tile after a point that adds to what the point before left. -/
def stepAt (c : Dev nD) (n : ℕ) (h : n < cfg0.N) (acc : S512x1024.Idx → EReal) : S512x1024.Idx → EReal :=
  k0_pay2 (F := Ideal) (grid0.coords ⟨n, h⟩) (iblk m c 0 ⟨n, h⟩) (iblk m c 1 ⟨n, h⟩) (iblk m c 2 ⟨n, h⟩) (iblk m c 3 ⟨n, h⟩) acc

/-- A step adds the point's addend. -/
theorem stepAt_apply (c : Dev nD) (n : ℕ) (h : n < cfg0.N) (acc : S512x1024.Idx → EReal) (i : S512x1024.Idx) :
    stepAt m c n h acc i = acc i + addAt m c n i := by
  obtain ⟨p, q, rfl⟩ : ∃ (p : Fin 512) (q : Fin 1024), i = ix2 p q := ⟨i 0, i 1, eq_ix2 i⟩
  unfold stepAt addAt blockAddend
  rw [dif_pos h]
  exact pay2_apply (grid0.coords ⟨n, h⟩) ⟨n % 8, Nat.mod_lt _ (by decide)⟩ (coord_expert ⟨n, h⟩) _ _ _ _ acc p q

/-- A reset leaves the zero word plus the point's addend. -/
theorem resetAt_apply (c : Dev nD) (n : ℕ) (h : n < cfg0.N) (i : S512x1024.Idx) :
    resetAt m c n h i = Ideal.ofBits .f32 0x00000000#32 + addAt m c n i :=
  stepAt_apply m c n h (k0_pay1 (F := Ideal)) i

/-- The staging buffer after point `8·T + j` is the fold of the tile's points so far. -/
theorem outsAt_fold (c : Dev nD) (T : ℕ) (j : ℕ) (hj : j < 8) (h : 8 * T + j < cfg0.N) :
    outsAt0 m c (8 * T + j) h = Pipeline.accAt (resetAt m c) (stepAt m c) (8 * T) j h :=
  Pipeline.eq_accAt (fun n hn => outsAt0 m c n hn) 8 (resetAt m c) (stepAt m c)
    (fun n hn h0 => (outsAt0_A m c ⟨n, hn⟩ h0).trans (out_A ..))
    (fun n hn hB => (outsAt0_B m c ⟨n + 1, hn⟩ hB).trans (out_B ..)) T j hj h

/-- At an index of the tile: the zero word plus the eight points' addends. -/
theorem outsAt_sum (c : Dev nD) (T : ℕ) (h : 8 * T + 7 < cfg0.N) (i : S512x1024.Idx) :
    outsAt0 m c (8 * T + 7) h i
      = Ideal.ofBits .f32 0x00000000#32 + ∑ s ∈ Finset.range 8, addAt m c (8 * T + s) i := by
  rw [outsAt_fold m c T 7 (by decide) h]
  exact Pipeline.accAt_add_apply (resetAt m c) (stepAt m c) (fun _ => Ideal.ofBits .f32 0x00000000#32) (addAt m c) (8 * T) 7
    (fun hb i => resetAt_apply m c _ hb i) (fun n hn acc i _ _ => stepAt_apply m c n hn acc i) 7 (le_refl _) h i

/-- Point `8·T + s`'s addend at row `p` of the tile is expert `s`'s weighted output for token `512·T + p`. -/
theorem addAt_eq (c : Dev nD) (T : Fin 8) (s : Fin 8) (p : Fin 512) (q : Fin 1024) (r : Fin 4096)
    (hr : r.val = 512 * T.val + p.val) :
    addAt m c (8 * T.val + s.val) (ix2 p q)
      = addend (V m c main_v1) (V m c main_v21) (fusedGate (V m c main_v23)) (fusedUp (V m c main_v23)) (V m c main_v24)
          s (ix2 r q) := by
  have hN : cfg0.N = 64 := N_0
  have hlt : 8 * T.val + s.val < cfg0.N := by have := T.isLt; have := s.isLt; omega
  have hd : (8 * T.val + s.val) / 8 = T.val := by have := s.isLt; omega
  have hm : (8 * T.val + s.val) % 8 = s.val := by have := s.isLt; omega
  unfold addAt addend blockAddend
  rw [dif_pos hlt]
  have hs : (⟨(8 * T.val + s.val) % 8, Nat.mod_lt _ (by decide)⟩ : Fin 8) = s := Fin.ext hm
  rw [hs]
  refine congrArg₂ (· * ·) ?_ ?_
  · exact comb_apply m c ⟨_, hlt⟩ p s r (by show r.val = 512 * ((8 * T.val + s.val) / 8) + p.val; rw [hd]; exact hr)
  · exact blockOut_eq _ _ _ _ _ _ s r p q
      (fun k => tok_apply m c ⟨_, hlt⟩ p k r (by show r.val = 512 * ((8 * T.val + s.val) / 8) + p.val; rw [hd]; exact hr))
      (fun a k => fused_apply m c ⟨_, hlt⟩ a k s (by show s.val = (8 * T.val + s.val) % 8; rw [hm]))
      (fun j => down_apply m c ⟨_, hlt⟩ q j s (by show s.val = (8 * T.val + s.val) % 8; rw [hm]))

/-- The output tile after the last expert of token tile `T`. -/
theorem outsAt_last (c : Dev nD) (T : Fin 8) (h : 8 * T.val + 7 < cfg0.N) (p : Fin 512) (q : Fin 1024) :
    outsAt0 m c (8 * T.val + 7) h (ix2 p q)
      = regionTotal m c (ix2 ⟨512 * T.val + p.val, by have := T.isLt; have := p.isLt; omega⟩ q) := by
  rw [outsAt_sum m c T.val h (ix2 p q), range_eight]
  unfold regionTotal total
  exact congrArg (Ideal.ofBits .f32 0x00000000#32 + ·)
    (Finset.sum_congr rfl fun s _ => addAt_eq m c T s p q _ rfl)

end Cert.KernelIdeal.Hand

end
-- ==== Proof.KernelArray.lean ====
/-
  From the output's blocks to the output array.

  The grid is 8 token tiles × 8 experts, point t = 8 · T + e. The output's block (512 × 1024, block row T, block column 0)
  is an accumulator over the experts of tile T and is written back to the array only after the tile's last expert, at
  the points t ≡ 7 (mod 8). After that point the block holds the layer's output at the tile's rows, so each of the eight
  write-backs stores its block of ONE function of the array's index, the layer's output; and every row r of the array
  lies in the block of tile r / 512. Hence the array after the run is the layer's output everywhere.
-/
import proofs.«106306_j35691178230103_2_alg».proof.Proof.Gen.KernelIdeal.Frame
import proofs.«106306_j35691178230103_2_alg».proof.Proof.PayloadIdx
import proofs.«106306_j35691178230103_2_alg».proof.Proof.Spec
import proofs.«106306_j35691178230103_2_alg».proof.Proof.KernelFold
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.MoeSpec

variable (m : (ℓ : Loc nD τ sig) → Buf (Elt Ideal) ℓ)

/-- The output window's printed index map, decided once over the grid: the block row is the token tile, the block
    column is 0. -/
theorem out_index : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- What the output's buffer holds after a point depends on the point's position only. -/
theorem outsAt0_congr (c : Dev nD) (n n' : ℕ) (hn : n < cfg0.N) (hn' : n' < cfg0.N) (h : n = n') :
    outsAt0 m c n hn = outsAt0 m c n' hn' := by
  subst h; rfl

/-- At a point that ends a token tile (position ≡ 7 mod 8, the tile's last expert), element (p, q) of the output's
    buffer is the layer's output at row 512 · tile + p, column q of the array. -/
theorem tile_last (c : Dev nD) (t : Fin cfg0.N) (h7 : t.val % 8 = 7) (p : Fin 512) (q : Fin 1024) (i : S4096x1024.Idx)
    (h0 : (i 0).val = 512 * (t.val / 8) + p.val) (h1 : (i 1).val = q.val) :
    outsAt0 m c t.val t.isLt (ix2 p q) = regionTotal m c i := by
  have hN : cfg0.N = 64 := N_0
  have hlt : t.val < cfg0.N := t.isLt
  have hT8 : t.val / 8 < 8 := by omega
  have hpos : t.val = 8 * (⟨t.val / 8, hT8⟩ : Fin 8).val + 7 := by show t.val = 8 * (t.val / 8) + 7; omega
  have hlt' : 8 * (⟨t.val / 8, hT8⟩ : Fin 8).val + 7 < cfg0.N := hpos ▸ hlt
  refine (congrFun (outsAt0_congr m c t.val _ t.isLt hlt' hpos) (ix2 p q)).trans ((outsAt_last m c ⟨t.val / 8, hT8⟩ hlt' p q).trans ?_)
  refine congrArg (regionTotal m c) (funext fun a => Fin.ext ?_)
  match a with
  | ⟨0, _⟩ => exact h0.symm
  | ⟨1, _⟩ => exact h1.symm

/-- What a tile's last point writes back is its block of the layer's output. -/
theorem flushed_eq (c : Dev nD) (t : Fin cfg0.N) (hf : (cfg0.win 4).flush t = true) :
    (dats m 0 c).flushed 4 t = ((cfg0.win 4).blk t).view.read (Elt Ideal) (regionTotal m c) := by
  show (cfg0.win 4).cut (grid0.coords t) ((dats m 0 c).after 4 t) = _
  rw [after0_4]
  have h7 : t.val % 8 = 7 := (flush0_4 t).mp hf
  obtain ⟨e0, e1⟩ := out_index t
  refine funext fun (y : S512x1024.Idx) => ?_
  obtain ⟨p, q, rfl⟩ : ∃ p q, y = ix2 p q := ⟨y 0, y 1, eq_ix2 y⟩
  rw [View.read_apply]
  show outsAt0 m c t.val t.isLt (ix2 p q) = regionTotal m c (((cfg0.win 4).blk t).view.emb (ix2 p q))
  refine tile_last m c t h7 p q _ ?_ ?_
  · show win0_4.index t (0 : Fin 2) * 512 + 1 * p.val = 512 * (t.val / 8) + p.val
    rw [e0]; omega
  · show win0_4.index t (1 : Fin 2) * 1024 + 1 * q.val = q.val
    rw [e1]; omega

/-- An index of the array is in a point's block iff each coordinate is in the block's range on its axis. -/
theorem mem_blk (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v25).slice (win0_4.rect t)).set ↔ _
  rw [View.set_slice_whole, Rect.mem_set_unit]
  exact Iff.rfl

/-- The array after the run is the layer's output everywhere: row r lies in the block the last point of tile r / 512
    writes back. -/
theorem arr_final (c : Dev nD) : (dats m 0 c).arrAt 4 cfg0.N = regionTotal m c :=
  (dats m 0 c).arrAt_eq_of_cover 4 (regionTotal m c) (flushed_eq m c) fun i => by
    have hi0 : (i 0).val < 4096 := (i 0).isLt
    have hi1 : (i 1).val < 1024 := (i 1).isLt
    have hN : cfg0.N = 64 := N_0
    have hlt : 8 * ((i 0).val / 512) + 7 < cfg0.N := by omega
    obtain ⟨e0, e1⟩ := out_index ⟨8 * ((i 0).val / 512) + 7, hlt⟩
    refine ⟨⟨8 * ((i 0).val / 512) + 7, hlt⟩, (flush0_4 _).mpr (by show (8 * ((i 0).val / 512) + 7) % 8 = 7; omega), ?_⟩
    rw [mem_blk]
    intro a
    match a with
    | ⟨0, _⟩ =>
      show win0_4.index ⟨8 * ((i 0).val / 512) + 7, hlt⟩ (0 : Fin 2) * 512 ≤ (i 0).val ∧ (i 0).val < win0_4.index ⟨8 * ((i 0).val / 512) + 7, hlt⟩ (0 : Fin 2) * 512 + 512
      rw [e0]
      show (8 * ((i 0).val / 512) + 7) / 8 * 512 ≤ (i 0).val ∧ (i 0).val < (8 * ((i 0).val / 512) + 7) / 8 * 512 + 512
      omega
    | ⟨1, _⟩ =>
      show win0_4.index ⟨8 * ((i 0).val / 512) + 7, hlt⟩ (1 : Fin 2) * 1024 ≤ (i 1).val ∧ (i 1).val < win0_4.index ⟨8 * ((i 0).val / 512) + 7, hlt⟩ (1 : Fin 2) * 1024 + 1024
      rw [e1]
      omega

end Cert.KernelIdeal.Hand

end
-- ==== Proof.HostEnds.lean ====
/-
  What the arrays hold when the kernel's grid starts, and what the program returns once it has run.

  Before the grid the program flattens the activations [4,1024,1024] to the token matrix [4096,1024], builds the
  combine matrix [4096,8] by a scatter-add of the routing weights at (token, chosen expert), joins the gate and the up
  weights along the inner axis into one fused array [8,1536,1024] (rows 0 … 767 the gate's, rows 768 … 1535 the up
  projection's), and changes the float format of the tokens, the fused weights and the down weights. On the extended
  reals a change of format is the identity, so each of these arrays is an argument read through a change of shape, a
  join, or the scatter-add. After the grid the program only folds the result [4096,1024] back to [4,1024,1024].
-/
import proofs.«106306_j35691178230103_2_alg».proof.Proof.Gen.KernelIdeal.Frame
import proofs.«106306_j35691178230103_2_alg».proof.Proof.Spec
import proofs.«106306_j35691178230103_2_alg».proof.Proof.RefRead
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.MoeSpec

variable (m : (ℓ : Loc nD τ sig) → Buf (Elt Ideal) ℓ)

/-- The token matrix: the activations read row-major as 4096 rows of 1024 (the change of format is the identity). -/
theorem V_tokens (c : Dev nD) : (V m c main_v1 : S4096x1024.Idx → EReal)
    = shapeCast S4096x1024 (m ((c : Thread nD τ).loc main_arg0)) shapeCasts_S4x1024x1024_S4096x1024 := by
  show StableHlo.after hostOps0 (fun b => m (c, b)) (Proc.devRef .tc main_v1) = _
  after_results
  rfl

/-- The fused weights: the gate weights joined with the up weights along the inner axis (the change of format is the
    identity). -/
theorem V_fused (c : Dev nD) : (V m c main_v23 : S8x1536x1024.Idx → EReal)
    = concatenate S8x1536x1024 1
        [⟨S8x768x1024, (m ((c : Thread nD τ).loc main_arg3) : S8x768x1024.Idx → EReal)⟩,
         ⟨S8x768x1024, (m ((c : Thread nD τ).loc main_arg4) : S8x768x1024.Idx → EReal)⟩]
        concatenates_S8x768x1024_S8x768x1024_S8x1536x1024_d1 := by
  show StableHlo.after hostOps0 (fun b => m (c, b)) (Proc.devRef .tc main_v23) = _
  after_results
  rfl

/-- Rows 0 … 767 of the fused weights are the gate weights: row `j < 768` lies left of the joint. -/
theorem V_gate (c : Dev nD) : fusedGate (V m c main_v23) = m ((c : Thread nD τ).loc main_arg3) := by
  funext i
  obtain ⟨e, j, k, rfl⟩ : ∃ (e : Fin 8) (j : Fin 768) (k : Fin 1024), i = ix3 e j k := ⟨i 0, i 1, i 2, eq_ix3 i⟩
  unfold fusedGate
  show (V m c main_v23 : S8x1536x1024.Idx → EReal) (ix3 e (gateRow j) k) = _
  refine (congrFun (V_fused m c) (ix3 e (gateRow j) k)).trans ?_
  exact concatenate_pair_apply_left (t := S8x1536x1024) (s₁ := S8x768x1024) (s₂ := S8x768x1024) 1 _ _ _ _ rfl
    (ix3 e j k) (fun b => by
      match b with
      | ⟨0, _⟩ => rfl
      | ⟨1, _⟩ => rfl
      | ⟨2, _⟩ => rfl)

/-- Rows 768 … 1535 of the fused weights are the up weights: row `768 + j` lies right of the joint, `j` rows past it. -/
theorem V_up (c : Dev nD) : fusedUp (V m c main_v23) = m ((c : Thread nD τ).loc main_arg4) := by
  funext i
  obtain ⟨e, j, k, rfl⟩ : ∃ (e : Fin 8) (j : Fin 768) (k : Fin 1024), i = ix3 e j k := ⟨i 0, i 1, i 2, eq_ix3 i⟩
  unfold fusedUp
  show (V m c main_v23 : S8x1536x1024.Idx → EReal) (ix3 e (upRow j) k) = _
  refine (congrFun (V_fused m c) (ix3 e (upRow j) k)).trans ?_
  exact concatenate_pair_apply_right (t := S8x1536x1024) (s₁ := S8x768x1024) (s₂ := S8x768x1024) 1 _ _ _ _ rfl rfl
    (ix3 e j k)
    (fun b hb => by
      match b with
      | ⟨0, _⟩ => rfl
      | ⟨1, _⟩ => exact absurd rfl hb
      | ⟨2, _⟩ => rfl)
    (by show j.val + 768 = 768 + j.val; omega)

/-- The down weights: the argument itself (the change of format is the identity). -/
theorem V_down (c : Dev nD) : (V m c main_v24 : S8x1024x768.Idx → EReal) = m ((c : Thread nD τ).loc main_arg5) := by
  show StableHlo.after hostOps0 (fun b => m (c, b)) (Proc.devRef .tc main_v24) = _
  after_results
  rfl

/-- The combine matrix: the scatter-add of the routing weights into a zero matrix at (token, chosen expert), both
    coordinates wrapped when negative, is operation for operation the one the reference program builds. -/
theorem V_combine (c : Dev nD) : (V m c main_v21 : S4096x8.Idx → EReal)
    = Cert.ReferenceIdeal.Read.val_main_v20 (F := Ideal) (m ((c : Thread nD τ).loc main_arg1)) (m ((c : Thread nD τ).loc main_arg2)) := by
  show StableHlo.after hostOps0 (fun b => m (c, b)) (Proc.devRef .tc main_v21) = _
  after_results_simp
  rfl

/-- What the program returns: the grid's output array [4096,1024] folded back to [4,1024,1024]. -/
theorem tail_eq (c : Dev nD) : Pipeline.afterTail₀ cfgs (dats m) 0 (V0 m) [hostOps1] c main_v26
    = shapeCast S4x1024x1024 ((dats m 0 c).arrAt 4 cfg0.N) shapeCasts_S4096x1024_S4x1024x1024 := by
  unfold Pipeline.afterTail₀
  show StableHlo.after hostOps1 _ (Proc.devRef .tc main_v26) = _
  after_results
  have e : Pipeline.withArrays spec0 c (V0 m c) (fun w => (dats m 0 c).arrAt w cfg0.N) (Proc.devRef .tc main_v25)
      = (dats m 0 c).arrAt 4 cfg0.N := Pipeline.withArrays_arr spec0 launch0.win.arr_inj c _ _ 4
  exact congrArg (fun A => shapeCast S4x1024x1024 A shapeCasts_S4096x1024_S4x1024x1024) e

end Cert.KernelIdeal.Hand

end
-- ==== Proof.KernelValue.lean ====
/-
  The kernel's run, read as a value. The frame run leaves the result array, after the last write-back, at the layer's
  output over the arrays the region finds; the one host operation after the region regroups its 4096 rows as 4 × 1024;
  and the host operations before the region make those arrays out of the arguments: the activations regrouped as
  4096 rows (the change of float format is the identity on the extended reals), the combine matrix by a scatter-add of
  the routing weights, the gate and the up weights joined along the inner axis, the down weights as they are.
-/
import proofs.«106306_j35691178230103_2_alg».proof.Proof.Gen.KernelIdeal.Frame
import proofs.«106306_j35691178230103_2_alg».proof.Proof.Spec
import proofs.«106306_j35691178230103_2_alg».proof.Proof.RefRead
import proofs.«106306_j35691178230103_2_alg».proof.Proof.KernelFold
import proofs.«106306_j35691178230103_2_alg».proof.Proof.KernelArray
import proofs.«106306_j35691178230103_2_alg».proof.Proof.HostEnds
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.MoeSpec

variable (m : (ℓ : Loc nD τ sig) → Buf (Elt Ideal) ℓ) (ρ : Dev nD → PrngReg)

/-- The kernel's result: the layer's output over the arrays the region finds, its rows regrouped as 4 × 1024. -/
def result (c : Dev nD) : Buf (Elt Ideal) ((c : Thread nD τ).loc main_v26) :=
  shapeCast S4x1024x1024 (regionTotal m c) shapeCasts_S4096x1024_S4x1024x1024

/-- Every weakly fair execution of the idealized kernel program terminates with its result buffer at `result` and its
    arguments unchanged. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v26 (Pipeline.mem_restRefs_of main_v26 (by decide) (by decide))).trans
        ((tail_eq m c).trans (congrArg (fun A => shapeCast S4x1024x1024 A shapeCasts_S4096x1024_S4x1024x1024) (arr_final m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

/-- The result over the argument arrays themselves. -/
theorem result_eq (c : Dev nD) : result m c
    = shapeCast S4x1024x1024
        (total (shapeCast S4096x1024 (m ((c : Thread nD τ).loc main_arg0)) shapeCasts_S4x1024x1024_S4096x1024)
          (Cert.ReferenceIdeal.Read.val_main_v20 (F := Ideal) (m ((c : Thread nD τ).loc main_arg1)) (m ((c : Thread nD τ).loc main_arg2)))
          (m ((c : Thread nD τ).loc main_arg3)) (m ((c : Thread nD τ).loc main_arg4)) (m ((c : Thread nD τ).loc main_arg5)))
        shapeCasts_S4096x1024_S4x1024x1024 := by
  unfold result regionTotal
  rw [V_tokens, V_gate, V_up, V_down, V_combine]

end Cert.KernelIdeal.Hand

end
-- ==== Proof.RefExperts.lean ====
import proofs.«106306_j35691178230103_2_alg».proof.Proof.RefRead
import proofs.«106306_j35691178230103_2_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

/-
  The reference's eight experts. For expert `e` the reference slices the gate, up and down weights at `e`, flattens
  and transposes each slice, multiplies the tokens by the first two, applies `g ↦ g · (1 / (1 + exp (−g)))` to the
  gate product, multiplies by the up product, and multiplies the result by the third. Read at an index, each of the
  three products is a sum over the contracted coordinate; a flattened, transposed slice read at `(k, j)` is the weight
  array at `(e, j, k)` (the flattening's quotient and remainder by the row length undo themselves); and the
  activation is `g · logistic g` once the word of `1.0` is read as the number one. Together: the specification's
  `expertOut` at expert `e`.
-/
namespace Cert.ReferenceIdeal.Hand

open Cert.ReferenceIdeal Cert.ReferenceIdeal.Gen Cert.ReferenceIdeal.Read Cert.MoeSpec

/-- The word `0x3F800000` denotes the real number one. -/
theorem ofBits_one_f32 : Ideal.ofBits .f32 0x3F800000#32 = 1 := by
  simp [Ideal.ofBits, Ideal.ieee, -EReal.coe_mul]; norm_num

/-- `g · (1 / (1 + exp (−g)))`, with both ones spelt as the word of `1.0`, is `g · logistic g`. -/
theorem silu_eq (g : Ideal .f32) :
    FloatOps.mulf g (FloatOps.hostDivf (FloatOps.ofBits .f32 0x3F800000#32 : Ideal .f32)
      (FloatOps.addf (FloatOps.ofBits .f32 0x3F800000#32 : Ideal .f32) (FloatOps.hostUnary .exp (FloatOps.hostNegf g))))
      = g * Ideal.logistic g := by
  show g * Ideal.div (Ideal.ofBits .f32 0x3F800000#32) (Ideal.ofBits .f32 0x3F800000#32 + Ideal.exp (-g)) = g * Ideal.logistic g
  rw [ofBits_one_f32]
  rfl

/-! ## Expert 0 -/

/-- The left operand of each of the expert's first two products is read at row `r`, column `k`. -/
theorem lrow0_g (r : Fin 4096) (j : Fin 768) (k : Fin 1024) : lidx_main_v25 (ix2 r j) k = ix2 r k := by
  funext a; match a with | ⟨0, _⟩ => rfl | ⟨1, _⟩ => rfl

theorem lrow0_u (r : Fin 4096) (j : Fin 768) (k : Fin 1024) : lidx_main_v29 (ix2 r j) k = ix2 r k := by
  funext a; match a with | ⟨0, _⟩ => rfl | ⟨1, _⟩ => rfl

theorem lrow0_d (r : Fin 4096) (h : Fin 1024) (j : Fin 768) : lidx_main_v35 (ix2 r h) j = ix2 r j := by
  funext a; match a with | ⟨0, _⟩ => rfl | ⟨1, _⟩ => rfl

/-- Slice 0 of the gate weights, flattened and transposed, read at `(k, j)` is `Wg[0, j, k]`. -/
theorem wg0 (x3 : FVec Ideal S8x768x1024 .f32) (r : Fin 4096) (j : Fin 768) (k : Fin 1024) :
    val_main_v24 (F := Ideal) x3 (ridx_main_v25 (ix2 r j) k) = x3 (ix3 0 j k) := by
  rw [val_main_v24_apply, val_main_v23_apply, val_main_v22_apply]
  refine congrArg x3 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- The same for the up weights. -/
theorem wu0 (x4 : FVec Ideal S8x768x1024 .f32) (r : Fin 4096) (j : Fin 768) (k : Fin 1024) :
    val_main_v28 (F := Ideal) x4 (ridx_main_v29 (ix2 r j) k) = x4 (ix3 0 j k) := by
  rw [val_main_v28_apply, val_main_v27_apply, val_main_v26_apply]
  refine congrArg x4 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- Slice 0 of the down weights, flattened and transposed, read at `(j, h)` is `Wd[0, h, j]`. -/
theorem wd0 (x5 : FVec Ideal S8x1024x768 .f32) (r : Fin 4096) (h : Fin 1024) (j : Fin 768) :
    val_main_v34 (F := Ideal) x5 (ridx_main_v35 (ix2 r h) j) = x5 (ix3 0 h j) := by
  rw [val_main_v34_apply, val_main_v33_apply, val_main_v32_apply]
  refine congrArg x5 (funext fun a => Fin.ext ?_)
  have hj := j.isLt; have hh := h.isLt
  match a with
  | ⟨0, _⟩ => rfl
  | ⟨1, _⟩ => show (h.val * 768 + j.val) / 768 % 1024 = h.val; omega
  | ⟨2, _⟩ => show (h.val * 768 + j.val) % 768 = j.val; omega

/-- The gate pre-activation of expert 0. -/
theorem gate0 (x0 : FVec Ideal S4x1024x1024 .f32) (x3 : FVec Ideal S8x768x1024 .f32) (r : Fin 4096) (j : Fin 768) :
    val_main_v25 (F := Ideal) x0 x3 (ix2 r j)
      = ∑ k : Fin 1024, val_main_v0 (F := Ideal) x0 (ix2 r k) * x3 (ix3 0 j k) := by
  rw [val_main_v25_apply]
  refine Finset.sum_congr rfl fun k _ => ?_
  rw [lrow0_g, wg0]

/-- The up projection of expert 0. -/
theorem up0 (x0 : FVec Ideal S4x1024x1024 .f32) (x4 : FVec Ideal S8x768x1024 .f32) (r : Fin 4096) (j : Fin 768) :
    val_main_v29 (F := Ideal) x0 x4 (ix2 r j)
      = ∑ k : Fin 1024, val_main_v0 (F := Ideal) x0 (ix2 r k) * x4 (ix3 0 j k) := by
  rw [val_main_v29_apply]
  refine Finset.sum_congr rfl fun k _ => ?_
  rw [lrow0_u, wu0]

/-- The activation: the gate pre-activation times its logistic. -/
theorem silu0 (x0 : FVec Ideal S4x1024x1024 .f32) (x3 : FVec Ideal S8x768x1024 .f32) (i : S4096x768.Idx) :
    val_main_v30 (F := Ideal) x0 x3 i
      = val_main_v25 (F := Ideal) x0 x3 i * Ideal.logistic (val_main_v25 (F := Ideal) x0 x3 i) := by
  rw [val_main_v30_apply, val_main_call0_v5_apply, val_main_call0_v4_apply, val_main_call0_cst_0_apply,
    val_main_call0_v3_apply, val_main_call0_v2_apply, val_main_call0_cst_apply, val_main_call0_v1_apply, val_main_call0_v0_apply]
  exact silu_eq _

/-- The hidden value of expert 0. -/
theorem hidden0 (x0 : FVec Ideal S4x1024x1024 .f32) (x3 x4 : FVec Ideal S8x768x1024 .f32) (r : Fin 4096) (j : Fin 768) :
    val_main_v31 (F := Ideal) x0 x3 x4 (ix2 r j) = hidden (val_main_v0 (F := Ideal) x0) x3 x4 0 r j := by
  rw [val_main_v31_apply, silu0, gate0, up0]
  rfl

theorem expert0 (x0 : FVec Ideal S4x1024x1024 .f32) (x3 x4 : FVec Ideal S8x768x1024 .f32) (x5 : FVec Ideal S8x1024x768 .f32)
    (i : S4096x1024.Idx) :
    val_main_v35 (F := Ideal) x0 x3 x4 x5 i = expertOut (val_main_v0 (F := Ideal) x0) x3 x4 x5 0 (i 0) (i 1) := by
  obtain ⟨r, h, rfl⟩ : ∃ (r : Fin 4096) (h : Fin 1024), i = ix2 r h := ⟨i 0, i 1, eq_ix2 i⟩
  show val_main_v35 (F := Ideal) x0 x3 x4 x5 (ix2 r h) = expertOut (val_main_v0 (F := Ideal) x0) x3 x4 x5 0 r h
  rw [val_main_v35_apply]
  unfold expertOut
  refine Finset.sum_congr rfl fun j _ => ?_
  rw [lrow0_d, wd0, hidden0]

/-! ## Expert 1 -/

/-- The left operand of each of the expert's first two products is read at row `r`, column `k`. -/
theorem lrow1_g (r : Fin 4096) (j : Fin 768) (k : Fin 1024) : lidx_main_v43 (ix2 r j) k = ix2 r k := by
  funext a; match a with | ⟨0, _⟩ => rfl | ⟨1, _⟩ => rfl

theorem lrow1_u (r : Fin 4096) (j : Fin 768) (k : Fin 1024) : lidx_main_v47 (ix2 r j) k = ix2 r k := by
  funext a; match a with | ⟨0, _⟩ => rfl | ⟨1, _⟩ => rfl

theorem lrow1_d (r : Fin 4096) (h : Fin 1024) (j : Fin 768) : lidx_main_v53 (ix2 r h) j = ix2 r j := by
  funext a; match a with | ⟨0, _⟩ => rfl | ⟨1, _⟩ => rfl

/-- Slice 1 of the gate weights, flattened and transposed, read at `(k, j)` is `Wg[1, j, k]`. -/
theorem wg1 (x3 : FVec Ideal S8x768x1024 .f32) (r : Fin 4096) (j : Fin 768) (k : Fin 1024) :
    val_main_v42 (F := Ideal) x3 (ridx_main_v43 (ix2 r j) k) = x3 (ix3 1 j k) := by
  rw [val_main_v42_apply, val_main_v41_apply, val_main_v40_apply]
  refine congrArg x3 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- The same for the up weights. -/
theorem wu1 (x4 : FVec Ideal S8x768x1024 .f32) (r : Fin 4096) (j : Fin 768) (k : Fin 1024) :
    val_main_v46 (F := Ideal) x4 (ridx_main_v47 (ix2 r j) k) = x4 (ix3 1 j k) := by
  rw [val_main_v46_apply, val_main_v45_apply, val_main_v44_apply]
  refine congrArg x4 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- Slice 1 of the down weights, flattened and transposed, read at `(j, h)` is `Wd[1, h, j]`. -/
theorem wd1 (x5 : FVec Ideal S8x1024x768 .f32) (r : Fin 4096) (h : Fin 1024) (j : Fin 768) :
    val_main_v52 (F := Ideal) x5 (ridx_main_v53 (ix2 r h) j) = x5 (ix3 1 h j) := by
  rw [val_main_v52_apply, val_main_v51_apply, val_main_v50_apply]
  refine congrArg x5 (funext fun a => Fin.ext ?_)
  have hj := j.isLt; have hh := h.isLt
  match a with
  | ⟨0, _⟩ => rfl
  | ⟨1, _⟩ => show (h.val * 768 + j.val) / 768 % 1024 = h.val; omega
  | ⟨2, _⟩ => show (h.val * 768 + j.val) % 768 = j.val; omega

/-- The gate pre-activation of expert 1. -/
theorem gate1 (x0 : FVec Ideal S4x1024x1024 .f32) (x3 : FVec Ideal S8x768x1024 .f32) (r : Fin 4096) (j : Fin 768) :
    val_main_v43 (F := Ideal) x0 x3 (ix2 r j)
      = ∑ k : Fin 1024, val_main_v0 (F := Ideal) x0 (ix2 r k) * x3 (ix3 1 j k) := by
  rw [val_main_v43_apply]
  refine Finset.sum_congr rfl fun k _ => ?_
  rw [lrow1_g, wg1]

/-- The up projection of expert 1. -/
theorem up1 (x0 : FVec Ideal S4x1024x1024 .f32) (x4 : FVec Ideal S8x768x1024 .f32) (r : Fin 4096) (j : Fin 768) :
    val_main_v47 (F := Ideal) x0 x4 (ix2 r j)
      = ∑ k : Fin 1024, val_main_v0 (F := Ideal) x0 (ix2 r k) * x4 (ix3 1 j k) := by
  rw [val_main_v47_apply]
  refine Finset.sum_congr rfl fun k _ => ?_
  rw [lrow1_u, wu1]

/-- The activation: the gate pre-activation times its logistic. -/
theorem silu1 (x0 : FVec Ideal S4x1024x1024 .f32) (x3 : FVec Ideal S8x768x1024 .f32) (i : S4096x768.Idx) :
    val_main_v48 (F := Ideal) x0 x3 i
      = val_main_v43 (F := Ideal) x0 x3 i * Ideal.logistic (val_main_v43 (F := Ideal) x0 x3 i) := by
  rw [val_main_v48_apply, val_main_call1_v5_apply, val_main_call1_v4_apply, val_main_call1_cst_0_apply,
    val_main_call1_v3_apply, val_main_call1_v2_apply, val_main_call1_cst_apply, val_main_call1_v1_apply, val_main_call1_v0_apply]
  exact silu_eq _

/-- The hidden value of expert 1. -/
theorem hidden1 (x0 : FVec Ideal S4x1024x1024 .f32) (x3 x4 : FVec Ideal S8x768x1024 .f32) (r : Fin 4096) (j : Fin 768) :
    val_main_v49 (F := Ideal) x0 x3 x4 (ix2 r j) = hidden (val_main_v0 (F := Ideal) x0) x3 x4 1 r j := by
  rw [val_main_v49_apply, silu1, gate1, up1]
  rfl

theorem expert1 (x0 : FVec Ideal S4x1024x1024 .f32) (x3 x4 : FVec Ideal S8x768x1024 .f32) (x5 : FVec Ideal S8x1024x768 .f32)
    (i : S4096x1024.Idx) :
    val_main_v53 (F := Ideal) x0 x3 x4 x5 i = expertOut (val_main_v0 (F := Ideal) x0) x3 x4 x5 1 (i 0) (i 1) := by
  obtain ⟨r, h, rfl⟩ : ∃ (r : Fin 4096) (h : Fin 1024), i = ix2 r h := ⟨i 0, i 1, eq_ix2 i⟩
  show val_main_v53 (F := Ideal) x0 x3 x4 x5 (ix2 r h) = expertOut (val_main_v0 (F := Ideal) x0) x3 x4 x5 1 r h
  rw [val_main_v53_apply]
  unfold expertOut
  refine Finset.sum_congr rfl fun j _ => ?_
  rw [lrow1_d, wd1, hidden1]

/-! ## Expert 2 -/

/-- The left operand of each of the expert's first two products is read at row `r`, column `k`. -/
theorem lrow2_g (r : Fin 4096) (j : Fin 768) (k : Fin 1024) : lidx_main_v61 (ix2 r j) k = ix2 r k := by
  funext a; match a with | ⟨0, _⟩ => rfl | ⟨1, _⟩ => rfl

theorem lrow2_u (r : Fin 4096) (j : Fin 768) (k : Fin 1024) : lidx_main_v65 (ix2 r j) k = ix2 r k := by
  funext a; match a with | ⟨0, _⟩ => rfl | ⟨1, _⟩ => rfl

theorem lrow2_d (r : Fin 4096) (h : Fin 1024) (j : Fin 768) : lidx_main_v71 (ix2 r h) j = ix2 r j := by
  funext a; match a with | ⟨0, _⟩ => rfl | ⟨1, _⟩ => rfl

/-- Slice 2 of the gate weights, flattened and transposed, read at `(k, j)` is `Wg[2, j, k]`. -/
theorem wg2 (x3 : FVec Ideal S8x768x1024 .f32) (r : Fin 4096) (j : Fin 768) (k : Fin 1024) :
    val_main_v60 (F := Ideal) x3 (ridx_main_v61 (ix2 r j) k) = x3 (ix3 2 j k) := by
  rw [val_main_v60_apply, val_main_v59_apply, val_main_v58_apply]
  refine congrArg x3 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- The same for the up weights. -/
theorem wu2 (x4 : FVec Ideal S8x768x1024 .f32) (r : Fin 4096) (j : Fin 768) (k : Fin 1024) :
    val_main_v64 (F := Ideal) x4 (ridx_main_v65 (ix2 r j) k) = x4 (ix3 2 j k) := by
  rw [val_main_v64_apply, val_main_v63_apply, val_main_v62_apply]
  refine congrArg x4 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- Slice 2 of the down weights, flattened and transposed, read at `(j, h)` is `Wd[2, h, j]`. -/
theorem wd2 (x5 : FVec Ideal S8x1024x768 .f32) (r : Fin 4096) (h : Fin 1024) (j : Fin 768) :
    val_main_v70 (F := Ideal) x5 (ridx_main_v71 (ix2 r h) j) = x5 (ix3 2 h j) := by
  rw [val_main_v70_apply, val_main_v69_apply, val_main_v68_apply]
  refine congrArg x5 (funext fun a => Fin.ext ?_)
  have hj := j.isLt; have hh := h.isLt
  match a with
  | ⟨0, _⟩ => rfl
  | ⟨1, _⟩ => show (h.val * 768 + j.val) / 768 % 1024 = h.val; omega
  | ⟨2, _⟩ => show (h.val * 768 + j.val) % 768 = j.val; omega

/-- The gate pre-activation of expert 2. -/
theorem gate2 (x0 : FVec Ideal S4x1024x1024 .f32) (x3 : FVec Ideal S8x768x1024 .f32) (r : Fin 4096) (j : Fin 768) :
    val_main_v61 (F := Ideal) x0 x3 (ix2 r j)
      = ∑ k : Fin 1024, val_main_v0 (F := Ideal) x0 (ix2 r k) * x3 (ix3 2 j k) := by
  rw [val_main_v61_apply]
  refine Finset.sum_congr rfl fun k _ => ?_
  rw [lrow2_g, wg2]

/-- The up projection of expert 2. -/
theorem up2 (x0 : FVec Ideal S4x1024x1024 .f32) (x4 : FVec Ideal S8x768x1024 .f32) (r : Fin 4096) (j : Fin 768) :
    val_main_v65 (F := Ideal) x0 x4 (ix2 r j)
      = ∑ k : Fin 1024, val_main_v0 (F := Ideal) x0 (ix2 r k) * x4 (ix3 2 j k) := by
  rw [val_main_v65_apply]
  refine Finset.sum_congr rfl fun k _ => ?_
  rw [lrow2_u, wu2]

/-- The activation: the gate pre-activation times its logistic. -/
theorem silu2 (x0 : FVec Ideal S4x1024x1024 .f32) (x3 : FVec Ideal S8x768x1024 .f32) (i : S4096x768.Idx) :
    val_main_v66 (F := Ideal) x0 x3 i
      = val_main_v61 (F := Ideal) x0 x3 i * Ideal.logistic (val_main_v61 (F := Ideal) x0 x3 i) := by
  rw [val_main_v66_apply, val_main_call2_v5_apply, val_main_call2_v4_apply, val_main_call2_cst_0_apply,
    val_main_call2_v3_apply, val_main_call2_v2_apply, val_main_call2_cst_apply, val_main_call2_v1_apply, val_main_call2_v0_apply]
  exact silu_eq _

/-- The hidden value of expert 2. -/
theorem hidden2 (x0 : FVec Ideal S4x1024x1024 .f32) (x3 x4 : FVec Ideal S8x768x1024 .f32) (r : Fin 4096) (j : Fin 768) :
    val_main_v67 (F := Ideal) x0 x3 x4 (ix2 r j) = hidden (val_main_v0 (F := Ideal) x0) x3 x4 2 r j := by
  rw [val_main_v67_apply, silu2, gate2, up2]
  rfl

theorem expert2 (x0 : FVec Ideal S4x1024x1024 .f32) (x3 x4 : FVec Ideal S8x768x1024 .f32) (x5 : FVec Ideal S8x1024x768 .f32)
    (i : S4096x1024.Idx) :
    val_main_v71 (F := Ideal) x0 x3 x4 x5 i = expertOut (val_main_v0 (F := Ideal) x0) x3 x4 x5 2 (i 0) (i 1) := by
  obtain ⟨r, h, rfl⟩ : ∃ (r : Fin 4096) (h : Fin 1024), i = ix2 r h := ⟨i 0, i 1, eq_ix2 i⟩
  show val_main_v71 (F := Ideal) x0 x3 x4 x5 (ix2 r h) = expertOut (val_main_v0 (F := Ideal) x0) x3 x4 x5 2 r h
  rw [val_main_v71_apply]
  unfold expertOut
  refine Finset.sum_congr rfl fun j _ => ?_
  rw [lrow2_d, wd2, hidden2]

/-! ## Expert 3 -/

/-- The left operand of each of the expert's first two products is read at row `r`, column `k`. -/
theorem lrow3_g (r : Fin 4096) (j : Fin 768) (k : Fin 1024) : lidx_main_v79 (ix2 r j) k = ix2 r k := by
  funext a; match a with | ⟨0, _⟩ => rfl | ⟨1, _⟩ => rfl

theorem lrow3_u (r : Fin 4096) (j : Fin 768) (k : Fin 1024) : lidx_main_v83 (ix2 r j) k = ix2 r k := by
  funext a; match a with | ⟨0, _⟩ => rfl | ⟨1, _⟩ => rfl

theorem lrow3_d (r : Fin 4096) (h : Fin 1024) (j : Fin 768) : lidx_main_v89 (ix2 r h) j = ix2 r j := by
  funext a; match a with | ⟨0, _⟩ => rfl | ⟨1, _⟩ => rfl

/-- Slice 3 of the gate weights, flattened and transposed, read at `(k, j)` is `Wg[3, j, k]`. -/
theorem wg3 (x3 : FVec Ideal S8x768x1024 .f32) (r : Fin 4096) (j : Fin 768) (k : Fin 1024) :
    val_main_v78 (F := Ideal) x3 (ridx_main_v79 (ix2 r j) k) = x3 (ix3 3 j k) := by
  rw [val_main_v78_apply, val_main_v77_apply, val_main_v76_apply]
  refine congrArg x3 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- The same for the up weights. -/
theorem wu3 (x4 : FVec Ideal S8x768x1024 .f32) (r : Fin 4096) (j : Fin 768) (k : Fin 1024) :
    val_main_v82 (F := Ideal) x4 (ridx_main_v83 (ix2 r j) k) = x4 (ix3 3 j k) := by
  rw [val_main_v82_apply, val_main_v81_apply, val_main_v80_apply]
  refine congrArg x4 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- Slice 3 of the down weights, flattened and transposed, read at `(j, h)` is `Wd[3, h, j]`. -/
theorem wd3 (x5 : FVec Ideal S8x1024x768 .f32) (r : Fin 4096) (h : Fin 1024) (j : Fin 768) :
    val_main_v88 (F := Ideal) x5 (ridx_main_v89 (ix2 r h) j) = x5 (ix3 3 h j) := by
  rw [val_main_v88_apply, val_main_v87_apply, val_main_v86_apply]
  refine congrArg x5 (funext fun a => Fin.ext ?_)
  have hj := j.isLt; have hh := h.isLt
  match a with
  | ⟨0, _⟩ => rfl
  | ⟨1, _⟩ => show (h.val * 768 + j.val) / 768 % 1024 = h.val; omega
  | ⟨2, _⟩ => show (h.val * 768 + j.val) % 768 = j.val; omega

/-- The gate pre-activation of expert 3. -/
theorem gate3 (x0 : FVec Ideal S4x1024x1024 .f32) (x3 : FVec Ideal S8x768x1024 .f32) (r : Fin 4096) (j : Fin 768) :
    val_main_v79 (F := Ideal) x0 x3 (ix2 r j)
      = ∑ k : Fin 1024, val_main_v0 (F := Ideal) x0 (ix2 r k) * x3 (ix3 3 j k) := by
  rw [val_main_v79_apply]
  refine Finset.sum_congr rfl fun k _ => ?_
  rw [lrow3_g, wg3]

/-- The up projection of expert 3. -/
theorem up3 (x0 : FVec Ideal S4x1024x1024 .f32) (x4 : FVec Ideal S8x768x1024 .f32) (r : Fin 4096) (j : Fin 768) :
    val_main_v83 (F := Ideal) x0 x4 (ix2 r j)
      = ∑ k : Fin 1024, val_main_v0 (F := Ideal) x0 (ix2 r k) * x4 (ix3 3 j k) := by
  rw [val_main_v83_apply]
  refine Finset.sum_congr rfl fun k _ => ?_
  rw [lrow3_u, wu3]

/-- The activation: the gate pre-activation times its logistic. -/
theorem silu3 (x0 : FVec Ideal S4x1024x1024 .f32) (x3 : FVec Ideal S8x768x1024 .f32) (i : S4096x768.Idx) :
    val_main_v84 (F := Ideal) x0 x3 i
      = val_main_v79 (F := Ideal) x0 x3 i * Ideal.logistic (val_main_v79 (F := Ideal) x0 x3 i) := by
  rw [val_main_v84_apply, val_main_call3_v5_apply, val_main_call3_v4_apply, val_main_call3_cst_0_apply,
    val_main_call3_v3_apply, val_main_call3_v2_apply, val_main_call3_cst_apply, val_main_call3_v1_apply, val_main_call3_v0_apply]
  exact silu_eq _

/-- The hidden value of expert 3. -/
theorem hidden3 (x0 : FVec Ideal S4x1024x1024 .f32) (x3 x4 : FVec Ideal S8x768x1024 .f32) (r : Fin 4096) (j : Fin 768) :
    val_main_v85 (F := Ideal) x0 x3 x4 (ix2 r j) = hidden (val_main_v0 (F := Ideal) x0) x3 x4 3 r j := by
  rw [val_main_v85_apply, silu3, gate3, up3]
  rfl

theorem expert3 (x0 : FVec Ideal S4x1024x1024 .f32) (x3 x4 : FVec Ideal S8x768x1024 .f32) (x5 : FVec Ideal S8x1024x768 .f32)
    (i : S4096x1024.Idx) :
    val_main_v89 (F := Ideal) x0 x3 x4 x5 i = expertOut (val_main_v0 (F := Ideal) x0) x3 x4 x5 3 (i 0) (i 1) := by
  obtain ⟨r, h, rfl⟩ : ∃ (r : Fin 4096) (h : Fin 1024), i = ix2 r h := ⟨i 0, i 1, eq_ix2 i⟩
  show val_main_v89 (F := Ideal) x0 x3 x4 x5 (ix2 r h) = expertOut (val_main_v0 (F := Ideal) x0) x3 x4 x5 3 r h
  rw [val_main_v89_apply]
  unfold expertOut
  refine Finset.sum_congr rfl fun j _ => ?_
  rw [lrow3_d, wd3, hidden3]

/-! ## Expert 4 -/

/-- The left operand of each of the expert's first two products is read at row `r`, column `k`. -/
theorem lrow4_g (r : Fin 4096) (j : Fin 768) (k : Fin 1024) : lidx_main_v97 (ix2 r j) k = ix2 r k := by
  funext a; match a with | ⟨0, _⟩ => rfl | ⟨1, _⟩ => rfl

theorem lrow4_u (r : Fin 4096) (j : Fin 768) (k : Fin 1024) : lidx_main_v101 (ix2 r j) k = ix2 r k := by
  funext a; match a with | ⟨0, _⟩ => rfl | ⟨1, _⟩ => rfl

theorem lrow4_d (r : Fin 4096) (h : Fin 1024) (j : Fin 768) : lidx_main_v107 (ix2 r h) j = ix2 r j := by
  funext a; match a with | ⟨0, _⟩ => rfl | ⟨1, _⟩ => rfl

/-- Slice 4 of the gate weights, flattened and transposed, read at `(k, j)` is `Wg[4, j, k]`. -/
theorem wg4 (x3 : FVec Ideal S8x768x1024 .f32) (r : Fin 4096) (j : Fin 768) (k : Fin 1024) :
    val_main_v96 (F := Ideal) x3 (ridx_main_v97 (ix2 r j) k) = x3 (ix3 4 j k) := by
  rw [val_main_v96_apply, val_main_v95_apply, val_main_v94_apply]
  refine congrArg x3 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- The same for the up weights. -/
theorem wu4 (x4 : FVec Ideal S8x768x1024 .f32) (r : Fin 4096) (j : Fin 768) (k : Fin 1024) :
    val_main_v100 (F := Ideal) x4 (ridx_main_v101 (ix2 r j) k) = x4 (ix3 4 j k) := by
  rw [val_main_v100_apply, val_main_v99_apply, val_main_v98_apply]
  refine congrArg x4 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- Slice 4 of the down weights, flattened and transposed, read at `(j, h)` is `Wd[4, h, j]`. -/
theorem wd4 (x5 : FVec Ideal S8x1024x768 .f32) (r : Fin 4096) (h : Fin 1024) (j : Fin 768) :
    val_main_v106 (F := Ideal) x5 (ridx_main_v107 (ix2 r h) j) = x5 (ix3 4 h j) := by
  rw [val_main_v106_apply, val_main_v105_apply, val_main_v104_apply]
  refine congrArg x5 (funext fun a => Fin.ext ?_)
  have hj := j.isLt; have hh := h.isLt
  match a with
  | ⟨0, _⟩ => rfl
  | ⟨1, _⟩ => show (h.val * 768 + j.val) / 768 % 1024 = h.val; omega
  | ⟨2, _⟩ => show (h.val * 768 + j.val) % 768 = j.val; omega

/-- The gate pre-activation of expert 4. -/
theorem gate4 (x0 : FVec Ideal S4x1024x1024 .f32) (x3 : FVec Ideal S8x768x1024 .f32) (r : Fin 4096) (j : Fin 768) :
    val_main_v97 (F := Ideal) x0 x3 (ix2 r j)
      = ∑ k : Fin 1024, val_main_v0 (F := Ideal) x0 (ix2 r k) * x3 (ix3 4 j k) := by
  rw [val_main_v97_apply]
  refine Finset.sum_congr rfl fun k _ => ?_
  rw [lrow4_g, wg4]

/-- The up projection of expert 4. -/
theorem up4 (x0 : FVec Ideal S4x1024x1024 .f32) (x4 : FVec Ideal S8x768x1024 .f32) (r : Fin 4096) (j : Fin 768) :
    val_main_v101 (F := Ideal) x0 x4 (ix2 r j)
      = ∑ k : Fin 1024, val_main_v0 (F := Ideal) x0 (ix2 r k) * x4 (ix3 4 j k) := by
  rw [val_main_v101_apply]
  refine Finset.sum_congr rfl fun k _ => ?_
  rw [lrow4_u, wu4]

/-- The activation: the gate pre-activation times its logistic. -/
theorem silu4 (x0 : FVec Ideal S4x1024x1024 .f32) (x3 : FVec Ideal S8x768x1024 .f32) (i : S4096x768.Idx) :
    val_main_v102 (F := Ideal) x0 x3 i
      = val_main_v97 (F := Ideal) x0 x3 i * Ideal.logistic (val_main_v97 (F := Ideal) x0 x3 i) := by
  rw [val_main_v102_apply, val_main_call4_v5_apply, val_main_call4_v4_apply, val_main_call4_cst_0_apply,
    val_main_call4_v3_apply, val_main_call4_v2_apply, val_main_call4_cst_apply, val_main_call4_v1_apply, val_main_call4_v0_apply]
  exact silu_eq _

/-- The hidden value of expert 4. -/
theorem hidden4 (x0 : FVec Ideal S4x1024x1024 .f32) (x3 x4 : FVec Ideal S8x768x1024 .f32) (r : Fin 4096) (j : Fin 768) :
    val_main_v103 (F := Ideal) x0 x3 x4 (ix2 r j) = hidden (val_main_v0 (F := Ideal) x0) x3 x4 4 r j := by
  rw [val_main_v103_apply, silu4, gate4, up4]
  rfl

theorem expert4 (x0 : FVec Ideal S4x1024x1024 .f32) (x3 x4 : FVec Ideal S8x768x1024 .f32) (x5 : FVec Ideal S8x1024x768 .f32)
    (i : S4096x1024.Idx) :
    val_main_v107 (F := Ideal) x0 x3 x4 x5 i = expertOut (val_main_v0 (F := Ideal) x0) x3 x4 x5 4 (i 0) (i 1) := by
  obtain ⟨r, h, rfl⟩ : ∃ (r : Fin 4096) (h : Fin 1024), i = ix2 r h := ⟨i 0, i 1, eq_ix2 i⟩
  show val_main_v107 (F := Ideal) x0 x3 x4 x5 (ix2 r h) = expertOut (val_main_v0 (F := Ideal) x0) x3 x4 x5 4 r h
  rw [val_main_v107_apply]
  unfold expertOut
  refine Finset.sum_congr rfl fun j _ => ?_
  rw [lrow4_d, wd4, hidden4]

/-! ## Expert 5 -/

/-- The left operand of each of the expert's first two products is read at row `r`, column `k`. -/
theorem lrow5_g (r : Fin 4096) (j : Fin 768) (k : Fin 1024) : lidx_main_v115 (ix2 r j) k = ix2 r k := by
  funext a; match a with | ⟨0, _⟩ => rfl | ⟨1, _⟩ => rfl

theorem lrow5_u (r : Fin 4096) (j : Fin 768) (k : Fin 1024) : lidx_main_v119 (ix2 r j) k = ix2 r k := by
  funext a; match a with | ⟨0, _⟩ => rfl | ⟨1, _⟩ => rfl

theorem lrow5_d (r : Fin 4096) (h : Fin 1024) (j : Fin 768) : lidx_main_v125 (ix2 r h) j = ix2 r j := by
  funext a; match a with | ⟨0, _⟩ => rfl | ⟨1, _⟩ => rfl

/-- Slice 5 of the gate weights, flattened and transposed, read at `(k, j)` is `Wg[5, j, k]`. -/
theorem wg5 (x3 : FVec Ideal S8x768x1024 .f32) (r : Fin 4096) (j : Fin 768) (k : Fin 1024) :
    val_main_v114 (F := Ideal) x3 (ridx_main_v115 (ix2 r j) k) = x3 (ix3 5 j k) := by
  rw [val_main_v114_apply, val_main_v113_apply, val_main_v112_apply]
  refine congrArg x3 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- The same for the up weights. -/
theorem wu5 (x4 : FVec Ideal S8x768x1024 .f32) (r : Fin 4096) (j : Fin 768) (k : Fin 1024) :
    val_main_v118 (F := Ideal) x4 (ridx_main_v119 (ix2 r j) k) = x4 (ix3 5 j k) := by
  rw [val_main_v118_apply, val_main_v117_apply, val_main_v116_apply]
  refine congrArg x4 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- Slice 5 of the down weights, flattened and transposed, read at `(j, h)` is `Wd[5, h, j]`. -/
theorem wd5 (x5 : FVec Ideal S8x1024x768 .f32) (r : Fin 4096) (h : Fin 1024) (j : Fin 768) :
    val_main_v124 (F := Ideal) x5 (ridx_main_v125 (ix2 r h) j) = x5 (ix3 5 h j) := by
  rw [val_main_v124_apply, val_main_v123_apply, val_main_v122_apply]
  refine congrArg x5 (funext fun a => Fin.ext ?_)
  have hj := j.isLt; have hh := h.isLt
  match a with
  | ⟨0, _⟩ => rfl
  | ⟨1, _⟩ => show (h.val * 768 + j.val) / 768 % 1024 = h.val; omega
  | ⟨2, _⟩ => show (h.val * 768 + j.val) % 768 = j.val; omega

/-- The gate pre-activation of expert 5. -/
theorem gate5 (x0 : FVec Ideal S4x1024x1024 .f32) (x3 : FVec Ideal S8x768x1024 .f32) (r : Fin 4096) (j : Fin 768) :
    val_main_v115 (F := Ideal) x0 x3 (ix2 r j)
      = ∑ k : Fin 1024, val_main_v0 (F := Ideal) x0 (ix2 r k) * x3 (ix3 5 j k) := by
  rw [val_main_v115_apply]
  refine Finset.sum_congr rfl fun k _ => ?_
  rw [lrow5_g, wg5]

/-- The up projection of expert 5. -/
theorem up5 (x0 : FVec Ideal S4x1024x1024 .f32) (x4 : FVec Ideal S8x768x1024 .f32) (r : Fin 4096) (j : Fin 768) :
    val_main_v119 (F := Ideal) x0 x4 (ix2 r j)
      = ∑ k : Fin 1024, val_main_v0 (F := Ideal) x0 (ix2 r k) * x4 (ix3 5 j k) := by
  rw [val_main_v119_apply]
  refine Finset.sum_congr rfl fun k _ => ?_
  rw [lrow5_u, wu5]

/-- The activation: the gate pre-activation times its logistic. -/
theorem silu5 (x0 : FVec Ideal S4x1024x1024 .f32) (x3 : FVec Ideal S8x768x1024 .f32) (i : S4096x768.Idx) :
    val_main_v120 (F := Ideal) x0 x3 i
      = val_main_v115 (F := Ideal) x0 x3 i * Ideal.logistic (val_main_v115 (F := Ideal) x0 x3 i) := by
  rw [val_main_v120_apply, val_main_call5_v5_apply, val_main_call5_v4_apply, val_main_call5_cst_0_apply,
    val_main_call5_v3_apply, val_main_call5_v2_apply, val_main_call5_cst_apply, val_main_call5_v1_apply, val_main_call5_v0_apply]
  exact silu_eq _

/-- The hidden value of expert 5. -/
theorem hidden5 (x0 : FVec Ideal S4x1024x1024 .f32) (x3 x4 : FVec Ideal S8x768x1024 .f32) (r : Fin 4096) (j : Fin 768) :
    val_main_v121 (F := Ideal) x0 x3 x4 (ix2 r j) = hidden (val_main_v0 (F := Ideal) x0) x3 x4 5 r j := by
  rw [val_main_v121_apply, silu5, gate5, up5]
  rfl

theorem expert5 (x0 : FVec Ideal S4x1024x1024 .f32) (x3 x4 : FVec Ideal S8x768x1024 .f32) (x5 : FVec Ideal S8x1024x768 .f32)
    (i : S4096x1024.Idx) :
    val_main_v125 (F := Ideal) x0 x3 x4 x5 i = expertOut (val_main_v0 (F := Ideal) x0) x3 x4 x5 5 (i 0) (i 1) := by
  obtain ⟨r, h, rfl⟩ : ∃ (r : Fin 4096) (h : Fin 1024), i = ix2 r h := ⟨i 0, i 1, eq_ix2 i⟩
  show val_main_v125 (F := Ideal) x0 x3 x4 x5 (ix2 r h) = expertOut (val_main_v0 (F := Ideal) x0) x3 x4 x5 5 r h
  rw [val_main_v125_apply]
  unfold expertOut
  refine Finset.sum_congr rfl fun j _ => ?_
  rw [lrow5_d, wd5, hidden5]

/-! ## Expert 6 -/

/-- The left operand of each of the expert's first two products is read at row `r`, column `k`. -/
theorem lrow6_g (r : Fin 4096) (j : Fin 768) (k : Fin 1024) : lidx_main_v133 (ix2 r j) k = ix2 r k := by
  funext a; match a with | ⟨0, _⟩ => rfl | ⟨1, _⟩ => rfl

theorem lrow6_u (r : Fin 4096) (j : Fin 768) (k : Fin 1024) : lidx_main_v137 (ix2 r j) k = ix2 r k := by
  funext a; match a with | ⟨0, _⟩ => rfl | ⟨1, _⟩ => rfl

theorem lrow6_d (r : Fin 4096) (h : Fin 1024) (j : Fin 768) : lidx_main_v143 (ix2 r h) j = ix2 r j := by
  funext a; match a with | ⟨0, _⟩ => rfl | ⟨1, _⟩ => rfl

/-- Slice 6 of the gate weights, flattened and transposed, read at `(k, j)` is `Wg[6, j, k]`. -/
theorem wg6 (x3 : FVec Ideal S8x768x1024 .f32) (r : Fin 4096) (j : Fin 768) (k : Fin 1024) :
    val_main_v132 (F := Ideal) x3 (ridx_main_v133 (ix2 r j) k) = x3 (ix3 6 j k) := by
  rw [val_main_v132_apply, val_main_v131_apply, val_main_v130_apply]
  refine congrArg x3 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- The same for the up weights. -/
theorem wu6 (x4 : FVec Ideal S8x768x1024 .f32) (r : Fin 4096) (j : Fin 768) (k : Fin 1024) :
    val_main_v136 (F := Ideal) x4 (ridx_main_v137 (ix2 r j) k) = x4 (ix3 6 j k) := by
  rw [val_main_v136_apply, val_main_v135_apply, val_main_v134_apply]
  refine congrArg x4 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- Slice 6 of the down weights, flattened and transposed, read at `(j, h)` is `Wd[6, h, j]`. -/
theorem wd6 (x5 : FVec Ideal S8x1024x768 .f32) (r : Fin 4096) (h : Fin 1024) (j : Fin 768) :
    val_main_v142 (F := Ideal) x5 (ridx_main_v143 (ix2 r h) j) = x5 (ix3 6 h j) := by
  rw [val_main_v142_apply, val_main_v141_apply, val_main_v140_apply]
  refine congrArg x5 (funext fun a => Fin.ext ?_)
  have hj := j.isLt; have hh := h.isLt
  match a with
  | ⟨0, _⟩ => rfl
  | ⟨1, _⟩ => show (h.val * 768 + j.val) / 768 % 1024 = h.val; omega
  | ⟨2, _⟩ => show (h.val * 768 + j.val) % 768 = j.val; omega

/-- The gate pre-activation of expert 6. -/
theorem gate6 (x0 : FVec Ideal S4x1024x1024 .f32) (x3 : FVec Ideal S8x768x1024 .f32) (r : Fin 4096) (j : Fin 768) :
    val_main_v133 (F := Ideal) x0 x3 (ix2 r j)
      = ∑ k : Fin 1024, val_main_v0 (F := Ideal) x0 (ix2 r k) * x3 (ix3 6 j k) := by
  rw [val_main_v133_apply]
  refine Finset.sum_congr rfl fun k _ => ?_
  rw [lrow6_g, wg6]

/-- The up projection of expert 6. -/
theorem up6 (x0 : FVec Ideal S4x1024x1024 .f32) (x4 : FVec Ideal S8x768x1024 .f32) (r : Fin 4096) (j : Fin 768) :
    val_main_v137 (F := Ideal) x0 x4 (ix2 r j)
      = ∑ k : Fin 1024, val_main_v0 (F := Ideal) x0 (ix2 r k) * x4 (ix3 6 j k) := by
  rw [val_main_v137_apply]
  refine Finset.sum_congr rfl fun k _ => ?_
  rw [lrow6_u, wu6]

/-- The activation: the gate pre-activation times its logistic. -/
theorem silu6 (x0 : FVec Ideal S4x1024x1024 .f32) (x3 : FVec Ideal S8x768x1024 .f32) (i : S4096x768.Idx) :
    val_main_v138 (F := Ideal) x0 x3 i
      = val_main_v133 (F := Ideal) x0 x3 i * Ideal.logistic (val_main_v133 (F := Ideal) x0 x3 i) := by
  rw [val_main_v138_apply, val_main_call6_v5_apply, val_main_call6_v4_apply, val_main_call6_cst_0_apply,
    val_main_call6_v3_apply, val_main_call6_v2_apply, val_main_call6_cst_apply, val_main_call6_v1_apply, val_main_call6_v0_apply]
  exact silu_eq _

/-- The hidden value of expert 6. -/
theorem hidden6 (x0 : FVec Ideal S4x1024x1024 .f32) (x3 x4 : FVec Ideal S8x768x1024 .f32) (r : Fin 4096) (j : Fin 768) :
    val_main_v139 (F := Ideal) x0 x3 x4 (ix2 r j) = hidden (val_main_v0 (F := Ideal) x0) x3 x4 6 r j := by
  rw [val_main_v139_apply, silu6, gate6, up6]
  rfl

theorem expert6 (x0 : FVec Ideal S4x1024x1024 .f32) (x3 x4 : FVec Ideal S8x768x1024 .f32) (x5 : FVec Ideal S8x1024x768 .f32)
    (i : S4096x1024.Idx) :
    val_main_v143 (F := Ideal) x0 x3 x4 x5 i = expertOut (val_main_v0 (F := Ideal) x0) x3 x4 x5 6 (i 0) (i 1) := by
  obtain ⟨r, h, rfl⟩ : ∃ (r : Fin 4096) (h : Fin 1024), i = ix2 r h := ⟨i 0, i 1, eq_ix2 i⟩
  show val_main_v143 (F := Ideal) x0 x3 x4 x5 (ix2 r h) = expertOut (val_main_v0 (F := Ideal) x0) x3 x4 x5 6 r h
  rw [val_main_v143_apply]
  unfold expertOut
  refine Finset.sum_congr rfl fun j _ => ?_
  rw [lrow6_d, wd6, hidden6]

/-! ## Expert 7 -/

/-- The left operand of each of the expert's first two products is read at row `r`, column `k`. -/
theorem lrow7_g (r : Fin 4096) (j : Fin 768) (k : Fin 1024) : lidx_main_v151 (ix2 r j) k = ix2 r k := by
  funext a; match a with | ⟨0, _⟩ => rfl | ⟨1, _⟩ => rfl

theorem lrow7_u (r : Fin 4096) (j : Fin 768) (k : Fin 1024) : lidx_main_v155 (ix2 r j) k = ix2 r k := by
  funext a; match a with | ⟨0, _⟩ => rfl | ⟨1, _⟩ => rfl

theorem lrow7_d (r : Fin 4096) (h : Fin 1024) (j : Fin 768) : lidx_main_v161 (ix2 r h) j = ix2 r j := by
  funext a; match a with | ⟨0, _⟩ => rfl | ⟨1, _⟩ => rfl

/-- Slice 7 of the gate weights, flattened and transposed, read at `(k, j)` is `Wg[7, j, k]`. -/
theorem wg7 (x3 : FVec Ideal S8x768x1024 .f32) (r : Fin 4096) (j : Fin 768) (k : Fin 1024) :
    val_main_v150 (F := Ideal) x3 (ridx_main_v151 (ix2 r j) k) = x3 (ix3 7 j k) := by
  rw [val_main_v150_apply, val_main_v149_apply, val_main_v148_apply]
  refine congrArg x3 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- The same for the up weights. -/
theorem wu7 (x4 : FVec Ideal S8x768x1024 .f32) (r : Fin 4096) (j : Fin 768) (k : Fin 1024) :
    val_main_v154 (F := Ideal) x4 (ridx_main_v155 (ix2 r j) k) = x4 (ix3 7 j k) := by
  rw [val_main_v154_apply, val_main_v153_apply, val_main_v152_apply]
  refine congrArg x4 (funext fun a => Fin.ext ?_)
  have hj := j.isLt; have hk := k.isLt
  match a with
  | ⟨0, _⟩ => rfl
  | ⟨1, _⟩ => show (j.val * 1024 + k.val) / 1024 % 768 = j.val; omega
  | ⟨2, _⟩ => show (j.val * 1024 + k.val) % 1024 = k.val; omega

/-- Slice 7 of the down weights, flattened and transposed, read at `(j, h)` is `Wd[7, h, j]`. -/
theorem wd7 (x5 : FVec Ideal S8x1024x768 .f32) (r : Fin 4096) (h : Fin 1024) (j : Fin 768) :
    val_main_v160 (F := Ideal) x5 (ridx_main_v161 (ix2 r h) j) = x5 (ix3 7 h j) := by
  rw [val_main_v160_apply, val_main_v159_apply, val_main_v158_apply]
  refine congrArg x5 (funext fun a => Fin.ext ?_)
  have hj := j.isLt; have hh := h.isLt
  match a with
  | ⟨0, _⟩ => rfl
  | ⟨1, _⟩ => show (h.val * 768 + j.val) / 768 % 1024 = h.val; omega
  | ⟨2, _⟩ => show (h.val * 768 + j.val) % 768 = j.val; omega

/-- The gate pre-activation of expert 7. -/
theorem gate7 (x0 : FVec Ideal S4x1024x1024 .f32) (x3 : FVec Ideal S8x768x1024 .f32) (r : Fin 4096) (j : Fin 768) :
    val_main_v151 (F := Ideal) x0 x3 (ix2 r j)
      = ∑ k : Fin 1024, val_main_v0 (F := Ideal) x0 (ix2 r k) * x3 (ix3 7 j k) := by
  rw [val_main_v151_apply]
  refine Finset.sum_congr rfl fun k _ => ?_
  rw [lrow7_g, wg7]

/-- The up projection of expert 7. -/
theorem up7 (x0 : FVec Ideal S4x1024x1024 .f32) (x4 : FVec Ideal S8x768x1024 .f32) (r : Fin 4096) (j : Fin 768) :
    val_main_v155 (F := Ideal) x0 x4 (ix2 r j)
      = ∑ k : Fin 1024, val_main_v0 (F := Ideal) x0 (ix2 r k) * x4 (ix3 7 j k) := by
  rw [val_main_v155_apply]
  refine Finset.sum_congr rfl fun k _ => ?_
  rw [lrow7_u, wu7]

/-- The activation: the gate pre-activation times its logistic. -/
theorem silu7 (x0 : FVec Ideal S4x1024x1024 .f32) (x3 : FVec Ideal S8x768x1024 .f32) (i : S4096x768.Idx) :
    val_main_v156 (F := Ideal) x0 x3 i
      = val_main_v151 (F := Ideal) x0 x3 i * Ideal.logistic (val_main_v151 (F := Ideal) x0 x3 i) := by
  rw [val_main_v156_apply, val_main_call7_v5_apply, val_main_call7_v4_apply, val_main_call7_cst_0_apply,
    val_main_call7_v3_apply, val_main_call7_v2_apply, val_main_call7_cst_apply, val_main_call7_v1_apply, val_main_call7_v0_apply]
  exact silu_eq _

/-- The hidden value of expert 7. -/
theorem hidden7 (x0 : FVec Ideal S4x1024x1024 .f32) (x3 x4 : FVec Ideal S8x768x1024 .f32) (r : Fin 4096) (j : Fin 768) :
    val_main_v157 (F := Ideal) x0 x3 x4 (ix2 r j) = hidden (val_main_v0 (F := Ideal) x0) x3 x4 7 r j := by
  rw [val_main_v157_apply, silu7, gate7, up7]
  rfl

theorem expert7 (x0 : FVec Ideal S4x1024x1024 .f32) (x3 x4 : FVec Ideal S8x768x1024 .f32) (x5 : FVec Ideal S8x1024x768 .f32)
    (i : S4096x1024.Idx) :
    val_main_v161 (F := Ideal) x0 x3 x4 x5 i = expertOut (val_main_v0 (F := Ideal) x0) x3 x4 x5 7 (i 0) (i 1) := by
  obtain ⟨r, h, rfl⟩ : ∃ (r : Fin 4096) (h : Fin 1024), i = ix2 r h := ⟨i 0, i 1, eq_ix2 i⟩
  show val_main_v161 (F := Ideal) x0 x3 x4 x5 (ix2 r h) = expertOut (val_main_v0 (F := Ideal) x0) x3 x4 x5 7 r h
  rw [val_main_v161_apply]
  unfold expertOut
  refine Finset.sum_congr rfl fun j _ => ?_
  rw [lrow7_d, wd7, hidden7]

end Cert.ReferenceIdeal.Hand

end
-- ==== Proof.RefTotal.lean ====
/-
  The reference's accumulation over the eight experts, read at an index.

  The reference starts from a block of the zero word and, for each expert e = 0 … 7 in order, adds the expert's output
  scaled by column e of the combine matrix (the column is sliced out as a [4096,1] block and repeated along the hidden
  width). At an index (r, h) the result is therefore the zero word plus, one after the other, C[r,e] · expertOut e r h;
  associativity of + turns the chain into the zero word plus the sum over the eight experts. The last operation only
  regroups the 4096 rows as 4 × 1024.
-/
import proofs.«106306_j35691178230103_2_alg».proof.Proof.RefExperts
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.ReferenceIdeal.Read Cert.MoeSpec

/-! ## The combine column of each expert

Column `e` of the combine matrix, sliced out and repeated along the hidden width: at (r, h) it is C[r, e]. The slice
reads row r at column e + 0 and the repetition reads the slice at (r, 0). -/

theorem comb0 (x1 : FVec Ideal S4x1024x2 .f32) (x2 : IVec S4x1024x2 32) (i : S4096x1024.Idx) :
    val_main_v37 (F := Ideal) x1 x2 i = val_main_v20 (F := Ideal) x1 x2 (ix2 (i 0) (0 : Fin 8)) := by
  rw [val_main_v37_apply, val_main_v36_apply]
  congr 1
  funext a
  match a with
  | ⟨0, _⟩ => rfl
  | ⟨1, _⟩ => rfl

theorem comb1 (x1 : FVec Ideal S4x1024x2 .f32) (x2 : IVec S4x1024x2 32) (i : S4096x1024.Idx) :
    val_main_v55 (F := Ideal) x1 x2 i = val_main_v20 (F := Ideal) x1 x2 (ix2 (i 0) (1 : Fin 8)) := by
  rw [val_main_v55_apply, val_main_v54_apply]
  congr 1
  funext a
  match a with
  | ⟨0, _⟩ => rfl
  | ⟨1, _⟩ => rfl

theorem comb2 (x1 : FVec Ideal S4x1024x2 .f32) (x2 : IVec S4x1024x2 32) (i : S4096x1024.Idx) :
    val_main_v73 (F := Ideal) x1 x2 i = val_main_v20 (F := Ideal) x1 x2 (ix2 (i 0) (2 : Fin 8)) := by
  rw [val_main_v73_apply, val_main_v72_apply]
  congr 1
  funext a
  match a with
  | ⟨0, _⟩ => rfl
  | ⟨1, _⟩ => rfl

theorem comb3 (x1 : FVec Ideal S4x1024x2 .f32) (x2 : IVec S4x1024x2 32) (i : S4096x1024.Idx) :
    val_main_v91 (F := Ideal) x1 x2 i = val_main_v20 (F := Ideal) x1 x2 (ix2 (i 0) (3 : Fin 8)) := by
  rw [val_main_v91_apply, val_main_v90_apply]
  congr 1
  funext a
  match a with
  | ⟨0, _⟩ => rfl
  | ⟨1, _⟩ => rfl

theorem comb4 (x1 : FVec Ideal S4x1024x2 .f32) (x2 : IVec S4x1024x2 32) (i : S4096x1024.Idx) :
    val_main_v109 (F := Ideal) x1 x2 i = val_main_v20 (F := Ideal) x1 x2 (ix2 (i 0) (4 : Fin 8)) := by
  rw [val_main_v109_apply, val_main_v108_apply]
  congr 1
  funext a
  match a with
  | ⟨0, _⟩ => rfl
  | ⟨1, _⟩ => rfl

theorem comb5 (x1 : FVec Ideal S4x1024x2 .f32) (x2 : IVec S4x1024x2 32) (i : S4096x1024.Idx) :
    val_main_v127 (F := Ideal) x1 x2 i = val_main_v20 (F := Ideal) x1 x2 (ix2 (i 0) (5 : Fin 8)) := by
  rw [val_main_v127_apply, val_main_v126_apply]
  congr 1
  funext a
  match a with
  | ⟨0, _⟩ => rfl
  | ⟨1, _⟩ => rfl

theorem comb6 (x1 : FVec Ideal S4x1024x2 .f32) (x2 : IVec S4x1024x2 32) (i : S4096x1024.Idx) :
    val_main_v145 (F := Ideal) x1 x2 i = val_main_v20 (F := Ideal) x1 x2 (ix2 (i 0) (6 : Fin 8)) := by
  rw [val_main_v145_apply, val_main_v144_apply]
  congr 1
  funext a
  match a with
  | ⟨0, _⟩ => rfl
  | ⟨1, _⟩ => rfl

theorem comb7 (x1 : FVec Ideal S4x1024x2 .f32) (x2 : IVec S4x1024x2 32) (i : S4096x1024.Idx) :
    val_main_v163 (F := Ideal) x1 x2 i = val_main_v20 (F := Ideal) x1 x2 (ix2 (i 0) (7 : Fin 8)) := by
  rw [val_main_v163_apply, val_main_v162_apply]
  congr 1
  funext a
  match a with
  | ⟨0, _⟩ => rfl
  | ⟨1, _⟩ => rfl

/-! ## The running sum at an index -/

/-- The last running sum at (r, h): the zero word plus the eight weighted expert outputs. -/
theorem sum_pt (x0 : FVec Ideal S4x1024x1024 .f32) (x1 : FVec Ideal S4x1024x2 .f32) (x2 : IVec S4x1024x2 32)
    (x3 x4 : FVec Ideal S8x768x1024 .f32) (x5 : FVec Ideal S8x1024x768 .f32) (i : S4096x1024.Idx) :
    val_main_v165 (F := Ideal) x0 x1 x2 x3 x4 x5 i
      = total (val_main_v0 (F := Ideal) x0) (val_main_v20 (F := Ideal) x1 x2) x3 x4 x5 i := by
  unfold total
  rw [← chain_eight]
  -- each running sum is the previous one plus the product of the combine column and the expert's output
  simp only [val_main_v165_apply, val_main_v164_apply, val_main_v147_apply, val_main_v146_apply, val_main_v129_apply, val_main_v128_apply, val_main_v111_apply, val_main_v110_apply, val_main_v93_apply, val_main_v92_apply, val_main_v75_apply, val_main_v74_apply, val_main_v57_apply, val_main_v56_apply, val_main_v39_apply, val_main_v38_apply,
    val_main_v21_apply, val_main_cst_3_apply, Ideal.ofBits_def, Ideal.addf_def, Ideal.mulf_def,
    comb0, comb1, comb2, comb3, comb4, comb5, comb6, comb7,
    expert0, expert1, expert2, expert3, expert4, expert5, expert6, expert7]
  rfl

/-- The reference's result: the layer's output with its 4096 rows regrouped as 4 × 1024. -/
theorem ref_value (x0 : FVec Ideal S4x1024x1024 .f32) (x1 : FVec Ideal S4x1024x2 .f32) (x2 : IVec S4x1024x2 32)
    (x3 x4 : FVec Ideal S8x768x1024 .f32) (x5 : FVec Ideal S8x1024x768 .f32) :
    val_main_v166 (F := Ideal) x0 x1 x2 x3 x4 x5
      = shapeCast S4x1024x1024 (total (val_main_v0 (F := Ideal) x0) (val_main_v20 (F := Ideal) x1 x2) x3 x4 x5)
          shapeCasts_S4096x1024_S4x1024x1024 := by
  unfold val_main_v166
  exact congrArg (fun A => shapeCast S4x1024x1024 A shapeCasts_S4096x1024_S4x1024x1024)
    (funext (sum_pt x0 x1 x2 x3 x4 x5))

end Cert.ReferenceIdeal.Hand

end
-- ==== Proof.lean ====
/-
  A mixture-of-experts layer: the Pallas kernel against its jnp reference, on the extended reals.

  Both programs compute, for token `r` (4096 of them, 1024 wide) and output column `h`,

      out[r, h] = 0 + Σ_{e < 8} C[r, e] · Σ_{j < 768} (silu(X[r,:]·Wg[e,j,:]) · (X[r,:]·Wu[e,j,:])) · Wd[e, h, j],

  `C` the combine matrix (a scatter-add of the routing weights at the selected experts, computed by the same host
  operations in both programs). The kernel walks a grid of 8 token tiles × 8 experts: it multiplies a tile by one
  expert's gate and up weights joined into one matrix, splits the product in two, applies `silu(g)·u`, multiplies
  by the expert's down weights and accumulates `C[:, e] · y` into the output tile, which is zeroed at the tile's first
  expert and written back after its last (the combine column is taken as a row sum against a one-hot mask). The
  reference does the same expert by expert over whole arrays, with the logistic function spelt `1 / (1 + exp(-g))`.
  On the extended reals the two are one function: a change of float format is the identity, a matrix product into a
  zero accumulator is the plain sum over the contracted axis, the kernel's logistic is that quotient, the one-hot row
  sum picks `C[r, e]` (a product with 0 is 0 for every extended real), and eight terms added one after the other onto
  the zero word are the zero word plus their sum (associativity only). Nothing here uses that the inputs are finite.

  The three frames: the two kernel programs' are the generated frame certificates; the reference's is its run with the
  result dropped. The ideal pass rewrote nothing, so `preserves` is `True`. `algebraic`: the kernel's result read off
  its frame run (Proof/KernelValue.lean and the modules under it) and the reference's read one operation at a time
  (Proof/RefTotal.lean) are both the regrouping of `Cert.MoeSpec.total` of the same arguments.
-/
import proofs.«106306_j35691178230103_2_alg».proof.Defs
import proofs.«106306_j35691178230103_2_alg».proof.Proof.Gen.Kernel
import proofs.«106306_j35691178230103_2_alg».proof.Proof.Gen.Kernel.Skeleton
import proofs.«106306_j35691178230103_2_alg».proof.Proof.Gen.Kernel.Launch
import proofs.«106306_j35691178230103_2_alg».proof.Proof.Gen.Kernel.Points
import proofs.«106306_j35691178230103_2_alg».proof.Proof.Gen.Kernel.Frame
import proofs.«106306_j35691178230103_2_alg».proof.Proof.Gen.KernelIdeal
import proofs.«106306_j35691178230103_2_alg».proof.Proof.Gen.KernelIdeal.Skeleton
import proofs.«106306_j35691178230103_2_alg».proof.Proof.Gen.KernelIdeal.Launch
import proofs.«106306_j35691178230103_2_alg».proof.Proof.Gen.KernelIdeal.Points
import proofs.«106306_j35691178230103_2_alg».proof.Proof.Gen.KernelIdeal.Frame
import proofs.«106306_j35691178230103_2_alg».proof.Proof.Gen.ReferenceIdeal
import proofs.«106306_j35691178230103_2_alg».proof.Proof.Gen.Pre_finite_inputs
import proofs.«106306_j35691178230103_2_alg».proof.Proof.KernelValue
import proofs.«106306_j35691178230103_2_alg».proof.Proof.RefRun
import proofs.«106306_j35691178230103_2_alg».proof.Proof.RefTotal
import Idealize.ShloMosaic.Adequacy
import Idealize.ShloMosaic.Init

noncomputable section

open Idealize.ShloMosaic Idealize.ShloMosaic.TcCoe Idealize.SL.Sem

namespace Cert.ReferenceIdeal.Hand

open Cert.ReferenceIdeal Cert.ReferenceIdeal.Gen Cert.ReferenceIdeal.Read

/-- The composed term the reference's run states for its result is the last stage of the reference read one
    operation at a time, at the argument arrays. -/
theorem res_eq (m : (ℓ : Loc nD τ sig) → Buf (Elt Ideal) ℓ) (c : Dev nD) :
    Cert.ReferenceIdeal.Value.res_main_v166 m c
      = val_main_v166 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v166; rfl

end Cert.ReferenceIdeal.Hand

namespace Cert.Proof

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote no operation. -/
theorem preserves : Cert.preserves_Kernel_KernelIdeal := trivial

/-- From memories agreeing on the arguments both programs end with the regrouped `total` of the same arrays: the
    kernel's by its frame run read as a value, the reference's by its run read one operation at a time; the two
    spellings of the regrouped activations and of the combine matrix are the same terms. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.result m c
  rw [Cert.KernelIdeal.Hand.result_eq, Cert.ReferenceIdeal.Hand.res_eq, Cert.ReferenceIdeal.Hand.ref_value,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
